-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32x40 .f32) (main_arg6 : FVec F S32x40 .f32) (main_arg7 : FVec F S40 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x40 .f32 := Host.absf main_arg5
  let main_cst_6 : FVec F S_ .f32 := constant S_ .f32 0x7F800000#32
  let main_v20 : FVec F S32x40 .f32 := broadcastInDim S32x40 ![] bcast_S_S32x40 main_cst_6
  let main_v21 : IVec S32x40 1 := cmpf .olt main_v19 main_v20
  let main_c_7 : IVec S_ 1 := constantI S_ 1 1#1
  let main_v22 : IVec S_ 1 := (fun x v => Host.reduce IntOp.andi x v reducesTo_S32x40_S_d0_1 h_S_) main_v21 main_c_7
  let main_v23 : IVec S_ 1 := andi main_v18 main_v22
  let main_v24 : FVec F S32x40 .f32 := Host.absf main_arg6
  let main_cst_8 : FVec F S_ .f32 := constant S_ .f32 0x7F800000#32
  let main_v25 : FVec F S32x40 .f32 := broadcastInDim S32x40 ![] bcast_S_S32x40 main_cst_8
  let main_v26 : IVec S32x40 1 := cmpf .olt main_v24 main_v25
  let main_c_9 : IVec S_ 1 := constantI S_ 1 1#1
  let main_v27 : IVec S_ 1 := (fun x v => Host.reduce IntOp.andi x v reducesTo_S32x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x32 .f32) (main_arg3 : FVec F S64x32 .f32) (main_arg4 : FVec F S32 .f32) (main_arg5 : FVec F S32x40 .f32) (main_arg6 : FVec F S32x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x32 : Shape := ⟨2, ![1, 32]⟩
abbrev S100000x1 : Shape := ⟨2, ![100000, 1]⟩
abbrev S100000x32 : Shape := ⟨2, ![100000, 32]⟩
abbrev S10000x64 : Shape := ⟨2, ![10000, 64]⟩
abbrev S10000x1 : Shape := ⟨2, ![10000, 1]⟩
abbrev S10000x32 : Shape := ⟨2, ![10000, 32]⟩
abbrev S1600000x32 : Shape := ⟨2, ![1600000, 32]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩

abbrev nBuf : Space → Nat
  | .hbm => 50
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x40, .f32⟩
  | .hbm, ⟨6, _⟩ => ⟨S32x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x32, .f32⟩
  | .hbm, ⟨32, _⟩ => ⟨S100000x1, .f32⟩
  | .hbm, ⟨33, _⟩ => ⟨S100000x32, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x32, .f32⟩
  | .hbm, ⟨43, _⟩ => ⟨S_, .f32⟩
  | .hbm, ⟨44, _⟩ => ⟨S100000x32, .f32⟩
  | .hbm, ⟨45, _⟩ => ⟨S1600000x1, .i32⟩
  | .hbm, ⟨46, _⟩ => ⟨S100000x32, .f32⟩
  | .hbm, ⟨47, _⟩ => ⟨S1x40, .f32⟩
  | .hbm, ⟨48, _⟩ => ⟨S100000x1, .f32⟩
  | .hbm, ⟨49, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x32, .f32⟩
  | .local _ .vmem, ⟨7, _⟩ => ⟨S64x32, .f32⟩
  | .local _ .vmem, ⟨8, _⟩ => ⟨S1x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x1, .f32⟩
  | .local _ .vmem, ⟨14, _⟩ => ⟨S10000x1, .f32⟩
  | .local _ .vmem, ⟨15, _⟩ => ⟨S10000x32, .f32⟩
  | .local _ .vmem, ⟨16, _⟩ => ⟨S10000x32, .f32⟩
  | .local _ .vmem, ⟨17, _⟩ => ⟨S32x40, .f32⟩
  | .local _ .vmem, ⟨18, _⟩ => ⟨S32x40, .f32⟩
  | .local _ .vmem, ⟨19, _⟩ => ⟨S1x40, .f32⟩
  | .local _ .vmem, ⟨20, _⟩ => ⟨S10000x40, .f32⟩
  | .local _ .vmem, ⟨21, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S40_S1x40 : S40.ShapeCasts S1x40
  shapeCasts_S10000x32_S10000x32 : S10000x32.ShapeCasts S10000x32
  broadcasts_S10000x1_S10000x32 : S10000x1.Broadcasts S10000x32
  inb_S32x40_S32x40_0_0 : ∀ a, (![0, 0] : Fin 2 → Nat) a + S32x40.size a ≤ S32x40.size a
  h_S32x40 : 0 < S32x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x40_S10000x40_1_0_0_1_n_n_wf : DotDims.WF S10000x32 S32x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S100000x32.size a
  hwx0_6 : ∀ i : grid0.Coords, EltTy.bits .f32 = 32 ∨ (Rect.block (s := S100000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x40.size a ≤ S32x40.size a
  hwx1_3 : ∀ i : grid1.Coords, EltTy.bits .f32 = 32 ∨ (Rect.block (s := S32x40) S32x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x40.size a ≤ S32x40.size a
  hwx1_4 : ∀ i : grid1.Coords, EltTy.bits .f32 = 32 ∨ (Rect.block (s := S32x40) S32x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x40.size a ≤ S100000x40.size a
  hwx1_6 : ∀ i : grid1.Coords, EltTy.bits .f32 = 32 ∨ (Rect.block (s := S100000x40) S10000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x40_S10000x40_1_0_0_1_n_n : DotDims S10000x32 S32x40 S10000x40 where
  lhsContracting := [1]
  rhsContracting := [0]
  lhsNonContracting := [0]
  rhsNonContracting := [1]
  lhsBatch := []
  rhsBatch := []
  wf := dot_S10000x32_S32x40_S10000x40_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x40 : Shape := ⟨2, ![32, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S64x32, .f32⟩
  | .hbm, ⟨4, _⟩ => ⟨S32, .f32⟩
  | .hbm, ⟨5, _⟩ => ⟨S32x40, .f32⟩
  | .hbm, ⟨6, _⟩ => ⟨S32x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S_, .f32⟩
  | .hbm, ⟨44, _⟩ => ⟨S100000x32, .f32⟩
  | .hbm, ⟨45, _⟩ => ⟨S100000x32, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x32, .f32⟩
  | .hbm, ⟨55, _⟩ => ⟨S_, .f32⟩
  | .hbm, ⟨56, _⟩ => ⟨S100000x32, .f32⟩
  | .hbm, ⟨57, _⟩ => ⟨S1600000x1, .i32⟩
  | .hbm, ⟨58, _⟩ => ⟨S100000x32, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x32, .f32⟩
  | .hbm, ⟨70, _⟩ => ⟨S100000x32, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x40_S100000x40_1_0_0_1_n_n_wf : DotDims.WF S100000x32 S32x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.KernelRun.lean ====
/-
  The kernel's run with its result array named.

  @main is a stretch of host operations, the first layer's region, a second stretch, the second layer's region.
  Every weakly fair execution from a memory with zero counters terminates without a fault, and the buffers it leaves
  are the fold of those four segments over the launch memory: after a host stretch each buffer holds the stretch's
  operations applied in order, after a region each of the region's arrays holds what its write-backs leave and every
  other buffer what it held at entry. The last boundary's contents are `W4`. So the result array ends at `W4` read at
  the second region's output array, and the eight argument arrays end as launched (no segment writes one).
-/
import proofs.«132116_j70789650972706_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this statement, through plain
-- definitions in a metavariable's type
set_option backward.isDefEq.respectTransparency.types false in
/-- Every weakly fair execution of @main terminates; the result array ends at the last boundary's contents and the
    arguments end as launched. -/
theorem run_out : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueRun

end
-- ==== Proof.Spec.lean ====
/-
  A two-layer mean-aggregating graph convolution, read one node at a time over the extended reals.

  For a node `p` with neighbour-sum row `s p`, own feature row `x p` and in-degree `d p`, a layer's affine part at
  output channel `q` is

      (∑ₖ (s p k / max (d p) 1) · Wl k q  +  ∑ₖ x p k · Wr k q)  +  b q .

  The first layer rectifies it (`max · 0`); the second subtracts the row's maximum `M` and then the logarithm of
  `∑_q' exp (a q' − M)`: the log-softmax of the row. Every output row depends on row `p` of the inputs only, so a
  whole array is this function row by row, however the rows are grouped into blocks.

  The three constants are kept as the words both programs print (`1.0`, `0.0`, `-∞`): the same word on both sides is
  never evaluated.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The floor under a degree: the word of `1.0`. -/
abbrev oneW : EReal := Ideal.ofBits .f32 0x3F800000#32
/-- The rectifier's floor: the word of `0.0`. -/
abbrev zeroW : EReal := Ideal.ofBits .f32 0x00000000#32
/-- The seed of a row maximum: the word of `-∞`. -/
abbrev negInfW : EReal := Ideal.ofBits .f32 0xFF800000#32

/-- One node's affine part at channel `q`: the neighbour sum over the floored degree through `Wl`, the node's own
    row through `Wr`, and the bias, added in that order. -/
def affine {K C : ℕ} (srow xrow : Fin K → EReal) (deg : EReal) (Wl Wr : Fin K → Fin C → EReal) (b : Fin C → EReal)
    (q : Fin C) : EReal :=
  (∑ k : Fin K, Ideal.div (srow k) (max deg oneW) * Wl k q + ∑ k : Fin K, xrow k * Wr k q) + b q

/-- The first layer's row: the affine part, rectified. -/
def hiddenRow {K C : ℕ} (srow xrow : Fin K → EReal) (deg : EReal) (Wl Wr : Fin K → Fin C → EReal) (b : Fin C → EReal)
    (q : Fin C) : EReal :=
  max (affine srow xrow deg Wl Wr b q) zeroW

/-- A row's maximum, folded from `-∞`. -/
def rowMax {C : ℕ} (a : Fin C → EReal) : EReal := (Finset.univ : Finset (Fin C)).fold max negInfW a

/-- The log-softmax of a row at channel `q`: the shifted entry minus the logarithm of the shifted exponentials' sum. -/
def logSoftmaxRow {C : ℕ} (a : Fin C → EReal) (q : Fin C) : EReal :=
  (a q - rowMax a) - Ideal.log (∑ q' : Fin C, Ideal.exp (a q' - rowMax a))

/-- The second layer's row: the log-softmax of the affine part. -/
def outRow {K C : ℕ} (srow xrow : Fin K → EReal) (deg : EReal) (Wl Wr : Fin K → Fin C → EReal) (b : Fin C → EReal)
    (q : Fin C) : EReal :=
  logSoftmaxRow (affine srow xrow deg Wl Wr b) q

/-- The row and the column of an index of a matrix. -/
abbrev rowOf {n0 n1 : ℕ} (j : (⟨2, ![n0, n1]⟩ : Shape).Idx) : Fin n0 := ⟨(j 0).val, idx2_lt0 j⟩
abbrev colOf {n0 n1 : ℕ} (j : (⟨2, ![n0, n1]⟩ : Shape).Idx) : Fin n1 := ⟨(j 1).val, idx2_lt1 j⟩

theorem eq_ix2_rowOf_colOf {n0 n1 : ℕ} (j : (⟨2, ![n0, n1]⟩ : Shape).Idx) : j = ix2 (rowOf j) (colOf j) := eq_ix2 j

/-- The first layer over whole arrays of `R` nodes: `s` the neighbour sums, `x` the features, `d` the degrees. -/
def layer1 {R K C : ℕ} (s x : (⟨2, ![R, K]⟩ : Shape).Idx → EReal) (d : Fin R → EReal)
    (Wl Wr : (⟨2, ![K, C]⟩ : Shape).Idx → EReal) (b : Fin C → EReal) : (⟨2, ![R, C]⟩ : Shape).Idx → EReal :=
  fun i => hiddenRow (fun k => s (ix2 (rowOf i) k)) (fun k => x (ix2 (rowOf i) k)) (d (rowOf i))
    (fun k q => Wl (ix2 k q)) (fun k q => Wr (ix2 k q)) b (colOf i)

/-- The second layer over whole arrays. -/
def layer2 {R K C : ℕ} (s x : (⟨2, ![R, K]⟩ : Shape).Idx → EReal) (d : Fin R → EReal)
    (Wl Wr : (⟨2, ![K, C]⟩ : Shape).Idx → EReal) (b : Fin C → EReal) : (⟨2, ![R, C]⟩ : Shape).Idx → EReal :=
  fun i => outRow (fun k => s (ix2 (rowOf i) k)) (fun k => x (ix2 (rowOf i) k)) (d (rowOf i))
    (fun k q => Wl (ix2 k q)) (fun k q => Wr (ix2 k q)) b (colOf i)

theorem layer1_apply {R K C : ℕ} (s x : (⟨2, ![R, K]⟩ : Shape).Idx → EReal) (d : Fin R → EReal)
    (Wl Wr : (⟨2, ![K, C]⟩ : Shape).Idx → EReal) (b : Fin C → EReal) (p : Fin R) (q : Fin C) :
    layer1 s x d Wl Wr b (ix2 p q)
      = hiddenRow (fun k => s (ix2 p k)) (fun k => x (ix2 p k)) (d p) (fun k q => Wl (ix2 k q)) (fun k q => Wr (ix2 k q)) b q := rfl

theorem layer2_apply {R K C : ℕ} (s x : (⟨2, ![R, K]⟩ : Shape).Idx → EReal) (d : Fin R → EReal)
    (Wl Wr : (⟨2, ![K, C]⟩ : Shape).Idx → EReal) (b : Fin C → EReal) (p : Fin R) (q : Fin C) :
    layer2 s x d Wl Wr b (ix2 p q)
      = outRow (fun k => s (ix2 p k)) (fun k => x (ix2 p k)) (d p) (fun k q => Wl (ix2 k q)) (fun k q => Wr (ix2 k q)) b q := rfl

/-- The seed is below every fold from it, so taking the maximum with the seed once more changes nothing. -/
theorem max_negInf_rowMax {C : ℕ} (a : Fin C → EReal) : max negInfW (rowMax a) = rowMax a :=
  max_eq_right ((Finset.le_fold_max _).mpr (Or.inl le_rfl))

end Cert.Sage

end
-- ==== Proof.Region0.lean ====
/-
  What the first layer's region leaves in its output array, as one function of the arrays the region finds.

  The grid has ten points; point `t` works on the block of rows `10000·t … 10000·t + 9999` of the neighbour sums, the
  degree column, the node features and the output, and on the whole of the two weight matrices and of the bias row.
  What the point writes back is the body's result on those blocks, and row `r` of that result depends on row `r` of
  the blocks only: it is row `10000·t + r` of `Cert.Sage.layer1` of the whole arrays. The ten blocks tile the
  100000 rows (row `i` is in the block of point `i / 10000`), so the array ends at `Cert.Sage.layer1` of the arrays.
-/
import proofs.«132116_j70789650972706_1_alg».proof.Proof.Gen.KernelIdeal.Frame
import proofs.«132116_j70789650972706_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

/-- The body's arithmetic read at row `r`, channel `q` of a block: the row function of the blocks' rows. -/
def PayloadReads : Prop :=
  ∀ (v0 : Vec Ideal S10000x1 .f32) (v4 v9 : Vec Ideal S10000x64 .f32) (v11 v13 : Vec Ideal S64x32 .f32) (v18 : Vec Ideal S1x32 .f32) (r : Fin 10000) (q : Fin 32),
    k0_pay1 (F := Ideal) v0 v4 v9 v11 v13 v18 (ix2 r q)
      = hiddenRow (fun k : Fin 64 => v4 (ix2 r k)) (fun k : Fin 64 => v9 (ix2 r k)) (v0 (ix2 r (0 : Fin 1)))
          (fun (k : Fin 64) (c : Fin 32) => v11 (ix2 k c)) (fun (k : Fin 64) (c : Fin 32) => v13 (ix2 k c))
          (fun c : Fin 32 => v18 (ix2 (0 : Fin 1) c)) q

variable (V : (c : Dev nD) → (b : Ref sig .tc) → Buf (Elt Ideal) ((c : Thread nD τ).loc b))

theorem origin_eq : (![0, 0] : Fin 2 → Nat) = fun _ => 0 := funext fun a => by fin_cases a <;> rfl

/-- The index maps over the grid: the row-blocked windows sit at block `(t, 0)`, the whole ones at `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- Every row block is some point's. -/
theorem block_onto : ∀ q0 : Fin 10, ∃ t : Fin cfg0.N, win0_6.index t = ![q0.val, 0] :=
  (by decide +kernel : ∀ q0 : Fin 10, ∃ t : Fin grid0.N, win0_6.index t = ![q0.val, 0])

/-- The whole-array function the output array ends at. -/
abbrev target (c : Dev nD) : S100000x32.Idx → EReal :=
  layer1 (V c main_v17) (V c main_arg0) (fun p : Fin 100000 => V c main_v19 (ix2 p (0 : Fin 1))) (V c main_arg2) (V c main_arg3)
    (fun q : Fin 32 => V c main_v18 (ix2 (0 : Fin 1) q))

/-- What point `t` writes back is block `t` of the target. -/
theorem flushed_eq (hpay : PayloadReads) (c : Dev nD) (t : Fin cfg0.N) :
    (dat0 V c).flushed 6 t = ((cfg0.win 6).blk t).view.read (Elt Ideal) (target V c) := by
  show (cfg0.win 6).cut (grid0.coords t) ((dat0 V c).after 6 t) = _
  rw [after0_6]
  unfold out0_6
  rw [View.canon_unit_zero origin_eq]
  simp only [View.ld_unit_zero (S := S10000x1) origin_eq, View.ld_unit_zero (S := S10000x64) origin_eq,
    View.ld_unit_zero (S := S64x32) origin_eq, View.ld_unit_zero (S := S1x32) origin_eq]
  obtain ⟨e00, e01, e10, e11, e20, e21, e30, e31, e40, e41, e50, e51, e60, e61, ht⟩ := block_indices t
  refine funext fun (j : S10000x32.Idx) => ?_
  obtain ⟨r, q, rfl⟩ : ∃ (r : Fin 10000) (q : Fin 32), j = ix2 r q := ⟨j 0, j 1, eq_ix2 j⟩
  show k0_pay1 (F := Ideal) (iblk0 V c 1 t) (iblk0 V c 0 t) (iblk0 V c 2 t) (iblk0 V c 3 t) (iblk0 V c 4 t) (iblk0 V c 5 t) (ix2 r q)
    = target V c (((cfg0.win 6).blk t).view.emb (ix2 r q))
  refine (hpay (iblk0 V c 1 t) (iblk0 V c 0 t) (iblk0 V c 2 t) (iblk0 V c 3 t) (iblk0 V c 4 t) (iblk0 V c 5 t) r q).trans ?_
  -- the row of the array this block row is
  have hp : t.val * 10000 + r.val < 100000 := by have := r.isLt; omega
  have hi : ((cfg0.win 6).blk t).view.emb (ix2 r q) = ix2 (⟨t.val * 10000 + r.val, hp⟩ : Fin 100000) q := by
    funext a; apply Fin.ext
    match a with
    | ⟨0, _⟩ => show win0_6.index t (0 : Fin 2) * 10000 + 1 * r.val = t.val * 10000 + r.val; omega
    | ⟨1, _⟩ => show win0_6.index t (1 : Fin 2) * 32 + 1 * q.val = q.val; omega
  rw [hi]
  dsimp only [target]
  rw [layer1_apply]
  -- each block row is the array's row, each whole block the array
  have h0 : ∀ k : Fin 64, iblk0 V c 0 t (ix2 r k) = V c main_v17 (ix2 (⟨t.val * 10000 + r.val, hp⟩ : Fin 100000) k) := fun k => by
    show V c main_v17 (((cfg0.win 0).blk t).view.emb (ix2 r k)) = _
    refine congrArg (V c main_v17) (funext fun a => Fin.ext ?_)
    match a with
    | ⟨0, _⟩ => show win0_0.index t (0 : Fin 2) * 10000 + 1 * r.val = t.val * 10000 + r.val; omega
    | ⟨1, _⟩ => show win0_0.index t (1 : Fin 2) * 64 + 1 * k.val = k.val; omega
  have h2 : ∀ k : Fin 64, iblk0 V c 2 t (ix2 r k) = V c main_arg0 (ix2 (⟨t.val * 10000 + r.val, hp⟩ : Fin 100000) k) := fun k => by
    show V c main_arg0 (((cfg0.win 2).blk t).view.emb (ix2 r k)) = _
    refine congrArg (V c main_arg0) (funext fun a => Fin.ext ?_)
    match a with
    | ⟨0, _⟩ => show win0_2.index t (0 : Fin 2) * 10000 + 1 * r.val = t.val * 10000 + r.val; omega
    | ⟨1, _⟩ => show win0_2.index t (1 : Fin 2) * 64 + 1 * k.val = k.val; omega
  have h1 : iblk0 V c 1 t (ix2 r (0 : Fin 1)) = V c main_v19 (ix2 (⟨t.val * 10000 + r.val, hp⟩ : Fin 100000) (0 : Fin 1)) := by
    show V c main_v19 (((cfg0.win 1).blk t).view.emb (ix2 r (0 : Fin 1))) = _
    refine congrArg (V c main_v19) (funext fun a => Fin.ext ?_)
    match a with
    | ⟨0, _⟩ => show win0_1.index t (0 : Fin 2) * 10000 + 1 * r.val = t.val * 10000 + r.val; omega
    | ⟨1, _⟩ => show win0_1.index t (1 : Fin 2) * 1 + 1 * 0 = 0; omega
  have h3 : ∀ (k : Fin 64) (c' : Fin 32), iblk0 V c 3 t (ix2 k c') = V c main_arg2 (ix2 k c') := fun k c' => by
    show V c main_arg2 (((cfg0.win 3).blk t).view.emb (ix2 k c')) = _
    refine congrArg (V c main_arg2) (funext fun a => Fin.ext ?_)
    match a with
    | ⟨0, _⟩ => show win0_3.index t (0 : Fin 2) * 64 + 1 * k.val = k.val; omega
    | ⟨1, _⟩ => show win0_3.index t (1 : Fin 2) * 32 + 1 * c'.val = c'.val; omega
  have h4 : ∀ (k : Fin 64) (c' : Fin 32), iblk0 V c 4 t (ix2 k c') = V c main_arg3 (ix2 k c') := fun k c' => by
    show V c main_arg3 (((cfg0.win 4).blk t).view.emb (ix2 k c')) = _
    refine congrArg (V c main_arg3) (funext fun a => Fin.ext ?_)
    match a with
    | ⟨0, _⟩ => show win0_4.index t (0 : Fin 2) * 64 + 1 * k.val = k.val; omega
    | ⟨1, _⟩ => show win0_4.index t (1 : Fin 2) * 32 + 1 * c'.val = c'.val; omega
  have h5 : ∀ c' : Fin 32, iblk0 V c 5 t (ix2 (0 : Fin 1) c') = V c main_v18 (ix2 (0 : Fin 1) c') := fun c' => by
    show V c main_v18 (((cfg0.win 5).blk t).view.emb (ix2 (0 : Fin 1) c')) = _
    refine congrArg (V c main_v18) (funext fun a => Fin.ext ?_)
    match a with
    | ⟨0, _⟩ => show win0_5.index t (0 : Fin 2) * 1 + 1 * 0 = 0; omega
    | ⟨1, _⟩ => show win0_5.index t (1 : Fin 2) * 32 + 1 * c'.val = c'.val; omega
  simp only [h0, h1, h2, h3, h4, h5]

/-- An index of the array is in point `t`'s block iff each coordinate is in the block's range on its axis. -/
theorem mem_block (t : Fin cfg0.N) (i : S100000x32.Idx) :
    i ∈ ((cfg0.win 6).blk t).view.set ↔ ∀ a : Fin 2, win0_6.index t a * S10000x32.size a ≤ (i a).val ∧ (i a).val < win0_6.index t a * S10000x32.size a + S10000x32.size a := by
  show i ∈ ((View.whole main_v20).slice (win0_6.rect t)).set ↔ _
  rw [View.set_slice_whole, Rect.mem_set_unit]
  exact Iff.rfl

/-- Every index of the output array is in the block of the point its row falls in. -/
theorem covered (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ := block_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 32 ≤ (i 1).val ∧ (i 1).val < win0_6.index t (1 : Fin 2) * 32 + 32; omega

/-- The output array after the region: the first layer of the arrays the region finds. -/
theorem array_eq (hpay : PayloadReads) (c : Dev nD) : (dat0 V c).arrAt 6 cfg0.N = target V c :=
  (dat0 V c).arrAt_eq_of_cover 6 (target V c) (fun t _ => flushed_eq V hpay c t) covered

end Cert.KernelIdeal.Region0

end
-- ==== Proof.Region1.lean ====
/-
  What the second layer's region leaves in its output array, as one function of the arrays the region finds.

  The grid has ten points; point `t` works on the block of rows `10000·t … 10000·t + 9999` of the neighbour sums, the
  degree column, the node features and the output, and on the whole of the two weight matrices and of the bias row.
  What the point writes back is the body's result on those blocks, and row `r` of that result depends on row `r` of
  the blocks only: it is row `10000·t + r` of `Cert.Sage.layer2` of the whole arrays. The ten blocks tile the
  100000 rows (row `i` is in the block of point `i / 10000`), so the array ends at `Cert.Sage.layer2` of the arrays.
-/
import proofs.«132116_j70789650972706_1_alg».proof.Proof.Gen.KernelIdeal.Frame
import proofs.«132116_j70789650972706_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Sage

/-- The body's arithmetic read at row `r`, channel `q` of a block: the row function of the blocks' rows. -/
def PayloadReads : Prop :=
  ∀ (v0 : Vec Ideal S10000x1 .f32) (v4 v9 : Vec Ideal S10000x32 .f32) (v12 v14 : Vec Ideal S32x40 .f32) (v19 : Vec Ideal S1x40 .f32) (r : Fin 10000) (q : Fin 40),
    k1_pay1 (F := Ideal) v0 v4 v9 v12 v14 v19 (ix2 r q)
      = outRow (fun k : Fin 32 => v4 (ix2 r k)) (fun k : Fin 32 => v9 (ix2 r k)) (v0 (ix2 r (0 : Fin 1)))
          (fun (k : Fin 32) (c : Fin 40) => v12 (ix2 k c)) (fun (k : Fin 32) (c : Fin 40) => v14 (ix2 k c))
          (fun c : Fin 40 => v19 (ix2 (0 : Fin 1) c)) q

variable (V : (c : Dev nD) → (b : Ref sig .tc) → Buf (Elt Ideal) ((c : Thread nD τ).loc b))

theorem origin_eq : (![0, 0] : Fin 2 → Nat) = fun _ => 0 := funext fun a => by fin_cases a <;> rfl

/-- The index maps over the grid: the row-blocked windows sit at block `(t, 0)`, the whole ones at `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- Every row block is some point's. -/
theorem block_onto : ∀ q0 : Fin 10, ∃ t : Fin cfg1.N, win1_6.index t = ![q0.val, 0] :=
  (by decide +kernel : ∀ q0 : Fin 10, ∃ t : Fin grid1.N, win1_6.index t = ![q0.val, 0])

/-- The whole-array function the output array ends at. -/
abbrev target (c : Dev nD) : S100000x40.Idx → EReal :=
  layer2 (V c main_v30) (V c main_v20) (fun p : Fin 100000 => V c main_v32 (ix2 p (0 : Fin 1))) (V c main_arg5) (V c main_arg6)
    (fun q : Fin 40 => V c main_v31 (ix2 (0 : Fin 1) q))

/-- What point `t` writes back is block `t` of the target. -/
theorem flushed_eq (hpay : PayloadReads) (c : Dev nD) (t : Fin cfg1.N) :
    (dat1 V c).flushed 6 t = ((cfg1.win 6).blk t).view.read (Elt Ideal) (target V c) := by
  show (cfg1.win 6).cut (grid1.coords t) ((dat1 V c).after 6 t) = _
  rw [after1_6]
  unfold out1_6
  rw [View.canon_unit_zero origin_eq]
  simp only [View.ld_unit_zero (S := S10000x1) origin_eq, View.ld_unit_zero (S := S10000x32) origin_eq,
    View.ld_unit_zero (S := S32x40) origin_eq, View.ld_unit_zero (S := S1x40) origin_eq]
  obtain ⟨e00, e01, e10, e11, e20, e21, e30, e31, e40, e41, e50, e51, e60, e61, ht⟩ := block_indices t
  refine funext fun (j : S10000x40.Idx) => ?_
  obtain ⟨r, q, rfl⟩ : ∃ (r : Fin 10000) (q : Fin 40), j = ix2 r q := ⟨j 0, j 1, eq_ix2 j⟩
  show k1_pay1 (F := Ideal) (iblk1 V c 1 t) (iblk1 V c 0 t) (iblk1 V c 2 t) (iblk1 V c 3 t) (iblk1 V c 4 t) (iblk1 V c 5 t) (ix2 r q)
    = target V c (((cfg1.win 6).blk t).view.emb (ix2 r q))
  refine (hpay (iblk1 V c 1 t) (iblk1 V c 0 t) (iblk1 V c 2 t) (iblk1 V c 3 t) (iblk1 V c 4 t) (iblk1 V c 5 t) r q).trans ?_
  -- the row of the array this block row is
  have hp : t.val * 10000 + r.val < 100000 := by have := r.isLt; omega
  have hi : ((cfg1.win 6).blk t).view.emb (ix2 r q) = ix2 (⟨t.val * 10000 + r.val, hp⟩ : Fin 100000) q := by
    funext a; apply Fin.ext
    match a with
    | ⟨0, _⟩ => show win1_6.index t (0 : Fin 2) * 10000 + 1 * r.val = t.val * 10000 + r.val; omega
    | ⟨1, _⟩ => show win1_6.index t (1 : Fin 2) * 40 + 1 * q.val = q.val; omega
  rw [hi]
  dsimp only [target]
  rw [layer2_apply]
  -- each block row is the array's row, each whole block the array
  have h0 : ∀ k : Fin 32, iblk1 V c 0 t (ix2 r k) = V c main_v30 (ix2 (⟨t.val * 10000 + r.val, hp⟩ : Fin 100000) k) := fun k => by
    show V c main_v30 (((cfg1.win 0).blk t).view.emb (ix2 r k)) = _
    refine congrArg (V c main_v30) (funext fun a => Fin.ext ?_)
    match a with
    | ⟨0, _⟩ => show win1_0.index t (0 : Fin 2) * 10000 + 1 * r.val = t.val * 10000 + r.val; omega
    | ⟨1, _⟩ => show win1_0.index t (1 : Fin 2) * 32 + 1 * k.val = k.val; omega
  have h2 : ∀ k : Fin 32, iblk1 V c 2 t (ix2 r k) = V c main_v20 (ix2 (⟨t.val * 10000 + r.val, hp⟩ : Fin 100000) k) := fun k => by
    show V c main_v20 (((cfg1.win 2).blk t).view.emb (ix2 r k)) = _
    refine congrArg (V c main_v20) (funext fun a => Fin.ext ?_)
    match a with
    | ⟨0, _⟩ => show win1_2.index t (0 : Fin 2) * 10000 + 1 * r.val = t.val * 10000 + r.val; omega
    | ⟨1, _⟩ => show win1_2.index t (1 : Fin 2) * 32 + 1 * k.val = k.val; omega
  have h1 : iblk1 V c 1 t (ix2 r (0 : Fin 1)) = V c main_v32 (ix2 (⟨t.val * 10000 + r.val, hp⟩ : Fin 100000) (0 : Fin 1)) := by
    show V c main_v32 (((cfg1.win 1).blk t).view.emb (ix2 r (0 : Fin 1))) = _
    refine congrArg (V c main_v32) (funext fun a => Fin.ext ?_)
    match a with
    | ⟨0, _⟩ => show win1_1.index t (0 : Fin 2) * 10000 + 1 * r.val = t.val * 10000 + r.val; omega
    | ⟨1, _⟩ => show win1_1.index t (1 : Fin 2) * 1 + 1 * 0 = 0; omega
  have h3 : ∀ (k : Fin 32) (c' : Fin 40), iblk1 V c 3 t (ix2 k c') = V c main_arg5 (ix2 k c') := fun k c' => by
    show V c main_arg5 (((cfg1.win 3).blk t).view.emb (ix2 k c')) = _
    refine congrArg (V c main_arg5) (funext fun a => Fin.ext ?_)
    match a with
    | ⟨0, _⟩ => show win1_3.index t (0 : Fin 2) * 32 + 1 * k.val = k.val; omega
    | ⟨1, _⟩ => show win1_3.index t (1 : Fin 2) * 40 + 1 * c'.val = c'.val; omega
  have h4 : ∀ (k : Fin 32) (c' : Fin 40), iblk1 V c 4 t (ix2 k c') = V c main_arg6 (ix2 k c') := fun k c' => by
    show V c main_arg6 (((cfg1.win 4).blk t).view.emb (ix2 k c')) = _
    refine congrArg (V c main_arg6) (funext fun a => Fin.ext ?_)
    match a with
    | ⟨0, _⟩ => show win1_4.index t (0 : Fin 2) * 32 + 1 * k.val = k.val; omega
    | ⟨1, _⟩ => show win1_4.index t (1 : Fin 2) * 40 + 1 * c'.val = c'.val; omega
  have h5 : ∀ c' : Fin 40, iblk1 V c 5 t (ix2 (0 : Fin 1) c') = V c main_v31 (ix2 (0 : Fin 1) c') := fun c' => by
    show V c main_v31 (((cfg1.win 5).blk t).view.emb (ix2 (0 : Fin 1) c')) = _
    refine congrArg (V c main_v31) (funext fun a => Fin.ext ?_)
    match a with
    | ⟨0, _⟩ => show win1_5.index t (0 : Fin 2) * 1 + 1 * 0 = 0; omega
    | ⟨1, _⟩ => show win1_5.index t (1 : Fin 2) * 40 + 1 * c'.val = c'.val; omega
  simp only [h0, h1, h2, h3, h4, h5]

/-- An index of the array is in point `t`'s block iff each coordinate is in the block's range on its axis. -/
theorem mem_block (t : Fin cfg1.N) (i : S100000x40.Idx) :
    i ∈ ((cfg1.win 6).blk t).view.set ↔ ∀ a : Fin 2, win1_6.index t a * S10000x40.size a ≤ (i a).val ∧ (i a).val < win1_6.index t a * S10000x40.size a + S10000x40.size a := by
  show i ∈ ((View.whole main_v33).slice (win1_6.rect t)).set ↔ _
  rw [View.set_slice_whole, Rect.mem_set_unit]
  exact Iff.rfl

/-- Every index of the output array is in the block of the point its row falls in. -/
theorem covered (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  obtain ⟨t, ht⟩ := block_onto ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 40 ≤ (i 1).val ∧ (i 1).val < win1_6.index t (1 : Fin 2) * 40 + 40; omega

/-- The output array after the region: the second layer of the arrays the region finds. -/
theorem array_eq (hpay : PayloadReads) (c : Dev nD) : (dat1 V c).arrAt 6 cfg1.N = target V c :=
  (dat1 V c).arrAt_eq_of_cover 6 (target V c) (fun t _ => flushed_eq V hpay c t) covered

end Cert.KernelIdeal.Region1

end
-- ==== Proof.Sparse.lean ====
/-
  The sparse part of a layer, shared by both programs: from the edge list `e` (row 0 the source endpoints, row 1 the
  destination endpoints) the two endpoint vectors; a source index below zero wrapped by the number of nodes; the
  NEIGHBOUR SUM of an array `h` of node rows — the rows of `h` gathered at the wrapped sources and added, into a zero
  array, at the destinations —; and the IN-DEGREE — ones added, into a zero vector, at the destinations.
  Both programs apply exactly these operations, so a value proof never opens a gather or a scatter: it shows the
  arrays going in equal.
-/
import proofs.«132116_j70789650972706_1_alg».proof.Proof.Gen.ReferenceIdeal

noncomputable section

namespace Cert.ReferenceIdeal.Sparse

open Cert.ReferenceIdeal Cert.ReferenceIdeal.Gen Idealize.ShloMosaic

variable {F : FTy → Type} [FloatOps F]

/-- The source endpoints: row 0 of the edge list. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The destination endpoints: row 1 of the edge list. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- An index below zero counts from the end: `100000` is added to it. -/
def wrapIdx (src : (⟨S1600000, .i32⟩ : BufTy).Contents (Elt F)) : (⟨S1600000, .i32⟩ : BufTy).Contents (Elt F) :=
  select (cmpi .slt src (broadcastInDim S1600000 ![] bcast_S_S1600000 (constantI S_ 32 0#32)))
    (addi src (broadcastInDim S1600000 ![] bcast_S_S1600000 (constantI S_ 32 100000#32))) src

/-- The neighbour sum of 64-wide node rows. -/
def aggr64 (h : FVec F S100000x64 .f32) (src dst : (⟨S1600000, .i32⟩ : BufTy).Contents (Elt F)) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0 (wrapIdx src)))

/-- The neighbour sum of 32-wide node rows. -/
def aggr32 (h : FVec F S100000x32 .f32) (src dst : (⟨S1600000, .i32⟩ : BufTy).Contents (Elt F)) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0 (wrapIdx src)))

/-- The in-degree of every node. -/
def degOf (dst : (⟨S1600000, .i32⟩ : BufTy).Contents (Elt F)) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

end Cert.ReferenceIdeal.Sparse

end
-- ==== Proof.KernelHost.lean ====
/-
  The kernel's two stretches of host operations, read from any contents `U` before them.

  Before the first region: the endpoint vectors of the edge list, the in-degree, the first neighbour sum, and the two
  re-shapings the region's windows take — the bias as a `[1, 32]` row and the in-degree as a `[100000, 1]` column.
  Between the regions: the second neighbour sum, of the first region's output array, along the same endpoints, and
  the second bias and the same in-degree re-shaped likewise. The sparse operations are the reference's own
  (`Cert.ReferenceIdeal.Sparse`): the same gather, the same scatter-add, the same index wrap.
-/
import proofs.«132116_j70789650972706_1_alg».proof.Proof.Gen.KernelIdeal.Launch
import proofs.«132116_j70789650972706_1_alg».proof.Proof.Sparse
import Idealize.ShloMosaic.Lib.StableHlo.Run

noncomputable section

namespace Cert.KernelIdeal.HostStretch

open Cert.KernelIdeal Cert.KernelIdeal.Gen Idealize.ShloMosaic Idealize.ShloMosaic.TcCoe Idealize.SL.Sem Idealize.ShloMosaic.StableHlo
open Cert.ReferenceIdeal.Sparse

variable {F : FTy → Type} [FloatOps F] (U : Valuation τ sig (Elt F))

/-! ### Before the first region -/
theorem H0_main_v17 : after (hostOps0 (F := F)) U (Proc.devRef .tc main_v17)
    = aggr64 (U (Proc.devRef .tc main_arg0)) (srcOf (U (Proc.devRef .tc main_arg1))) (dstOf (U (Proc.devRef .tc main_arg1))) := by
  after_results_simp; rfl
theorem H0_main_v19 : after (hostOps0 (F := F)) U (Proc.devRef .tc main_v19)
    = shapeCast S100000x1 (degOf (dstOf (U (Proc.devRef .tc main_arg1)))) shapeCasts_S100000_S100000x1 := by
  after_results_simp; rfl
theorem H0_main_v18 : after (hostOps0 (F := F)) U (Proc.devRef .tc main_v18) = shapeCast S1x32 (U (Proc.devRef .tc main_arg4)) shapeCasts_S32_S1x32 := by
  after_results_simp; rfl
theorem H0_main_v1 : after (hostOps0 (F := F)) U (Proc.devRef .tc main_v1) = srcOf (U (Proc.devRef .tc main_arg1)) := by
  after_results_simp; rfl
theorem H0_main_v3 : after (hostOps0 (F := F)) U (Proc.devRef .tc main_v3) = dstOf (U (Proc.devRef .tc main_arg1)) := by
  after_results_simp; rfl
theorem H0_main_v7 : after (hostOps0 (F := F)) U (Proc.devRef .tc main_v7) = degOf (dstOf (U (Proc.devRef .tc main_arg1))) := by
  after_results_simp; rfl
theorem H0_main_arg0 : after (hostOps0 (F := F)) U (Proc.devRef .tc main_arg0) = U (Proc.devRef .tc main_arg0) := by after_results_simp
theorem H0_main_arg2 : after (hostOps0 (F := F)) U (Proc.devRef .tc main_arg2) = U (Proc.devRef .tc main_arg2) := by after_results_simp
theorem H0_main_arg3 : after (hostOps0 (F := F)) U (Proc.devRef .tc main_arg3) = U (Proc.devRef .tc main_arg3) := by after_results_simp
theorem H0_main_arg5 : after (hostOps0 (F := F)) U (Proc.devRef .tc main_arg5) = U (Proc.devRef .tc main_arg5) := by after_results_simp
theorem H0_main_arg6 : after (hostOps0 (F := F)) U (Proc.devRef .tc main_arg6) = U (Proc.devRef .tc main_arg6) := by after_results_simp
theorem H0_main_arg7 : after (hostOps0 (F := F)) U (Proc.devRef .tc main_arg7) = U (Proc.devRef .tc main_arg7) := by after_results_simp

/-! ### Between the regions -/
theorem H1_main_v30 : after (hostOps1 (F := F)) U (Proc.devRef .tc main_v30)
    = aggr32 (U (Proc.devRef .tc main_v20)) (U (Proc.devRef .tc main_v1)) (U (Proc.devRef .tc main_v3)) := by
  after_results_simp; rfl
theorem H1_main_v32 : after (hostOps1 (F := F)) U (Proc.devRef .tc main_v32) = shapeCast S100000x1 (U (Proc.devRef .tc main_v7)) shapeCasts_S100000_S100000x1 := by
  after_results_simp; rfl
theorem H1_main_v31 : after (hostOps1 (F := F)) U (Proc.devRef .tc main_v31) = shapeCast S1x40 (U (Proc.devRef .tc main_arg7)) shapeCasts_S40_S1x40 := by
  after_results_simp; rfl
theorem H1_main_v20 : after (hostOps1 (F := F)) U (Proc.devRef .tc main_v20) = U (Proc.devRef .tc main_v20) := by after_results_simp
theorem H1_main_arg5 : after (hostOps1 (F := F)) U (Proc.devRef .tc main_arg5) = U (Proc.devRef .tc main_arg5) := by after_results_simp
theorem H1_main_arg6 : after (hostOps1 (F := F)) U (Proc.devRef .tc main_arg6) = U (Proc.devRef .tc main_arg6) := by after_results_simp

end Cert.KernelIdeal.HostStretch

end
-- ==== Proof.LibColumns.lean ====
/-
  A column read at an index: the two keepdims forms that go with the library's row forms.

  An `[a]` vector cast to an `[a, 1]` column holds, at row `p`, the vector's entry `p` (both have row-major position
  `p`); an `[a, 1]` column broadcast to `[a, b]` holds, at `(p, c)`, the column's entry at row `p` whatever the channel.
-/
import Idealize.ShloMosaic.Lib.Pipeline.Value
import Idealize.ShloMosaic.Lib.ValueIdx

namespace Cert.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.KernelValue.lean ====
/-
  The kernel's result array as one function of the argument arrays.

  Reading the last boundary's contents back through the four segments: the second region's output array is
  `layer₂` of the arrays it finds; those are the second stretch's neighbour sum of the first region's output and the
  re-shaped in-degree and bias; the first region's output is `layer₁` of the arrays IT finds; those are the first
  stretch's neighbour sum of the features and the re-shaped in-degree and bias. A buffer a segment does not write
  keeps what it held. So, with `Σ` the neighbour sum along the edge list and `deg` the in-degree,

      out = layer₂ (Σ h) h deg      with   h = layer₁ (Σ x) x deg ,

  the in-degree entering as a column and each bias as a row (`kOut`).
-/
import proofs.«132116_j70789650972706_1_alg».proof.Proof.KernelRun
import proofs.«132116_j70789650972706_1_alg».proof.Proof.Region0
import proofs.«132116_j70789650972706_1_alg».proof.Proof.Region1
import proofs.«132116_j70789650972706_1_alg».proof.Proof.KernelHost
import proofs.«132116_j70789650972706_1_alg».proof.Proof.LibColumns
import Idealize.ShloMosaic.Lib.ValueLayout

set_option maxRecDepth 16384

noncomputable section

namespace Cert.KernelIdeal.KernelValue

open Idealize.ShloMosaic Idealize.ShloMosaic.TcCoe Idealize.ShloMosaic.ValueIdx
open Idealize.SL Idealize.SL.Sem Idealize.ShloMosaic.StableHlo
open Cert.KernelIdeal Cert.KernelIdeal.Gen Cert.KernelIdeal.HostStretch Cert.Sage
open Cert.ReferenceIdeal.Sparse

/-- The in-degree as the column the regions' windows take, read at its rows. -/
abbrev degCol (e : (⟨S2x1600000, .i32⟩ : BufTy).Contents (Elt Ideal)) : Fin 100000 → EReal :=
  fun p => shapeCast S100000x1 (degOf (F := Ideal) (dstOf e)) shapeCasts_S100000_S100000x1 (ix2 p (0 : Fin 1))

/-- A bias as the row the regions' windows take, read at its channels. -/
abbrev biasRow32 (b : FVec Ideal S32 .f32) : Fin 32 → EReal :=
  fun q => shapeCast S1x32 b shapeCasts_S32_S1x32 (ix2 (0 : Fin 1) q)
abbrev biasRow40 (b : FVec Ideal S40 .f32) : Fin 40 → EReal :=
  fun q => shapeCast S1x40 b shapeCasts_S40_S1x40 (ix2 (0 : Fin 1) q)

/-- The column's row `p` is the in-degree of node `p`; a bias row's channel `q` is the bias at `q`. -/
theorem degCol_eq (e : (⟨S2x1600000, .i32⟩ : BufTy).Contents (Elt Ideal)) :
    degCol e = fun p : Fin 100000 => degOf (F := Ideal) (dstOf e) (ix1 p) :=
  funext fun p => Cert.LibColumns.shapeCast_a_a1_apply _ _ p 0
theorem biasRow32_eq (b : FVec Ideal S32 .f32) : biasRow32 b = fun q : Fin 32 => b (ix1 q) :=
  funext fun q => shapeCast_a_1a_apply _ _ 0 q
theorem biasRow40_eq (b : FVec Ideal S40 .f32) : biasRow40 b = fun q : Fin 40 => b (ix1 q) :=
  funext fun q => shapeCast_a_1a_apply _ _ 0 q

/-- The first layer's result from the features, the edge list and the first layer's parameters. -/
def kHidden (x : FVec Ideal S100000x64 .f32) (e : (⟨S2x1600000, .i32⟩ : BufTy).Contents (Elt Ideal)) (Wl1 Wr1 : FVec Ideal S64x32 .f32)
    (b1 : FVec Ideal S32 .f32) : S100000x32.Idx → EReal :=
  layer1 (aggr64 (F := Ideal) x (srcOf e) (dstOf e)) x (degCol e) Wl1 Wr1 (biasRow32 b1)

/-- The network's result from the eight arguments. -/
def kOut (x : FVec Ideal S100000x64 .f32) (e : (⟨S2x1600000, .i32⟩ : BufTy).Contents (Elt Ideal)) (Wl1 Wr1 : FVec Ideal S64x32 .f32)
    (b1 : FVec Ideal S32 .f32) (Wl2 Wr2 : FVec Ideal S32x40 .f32) (b2 : FVec Ideal S40 .f32) : S100000x40.Idx → EReal :=
  layer2 (aggr32 (F := Ideal) (kHidden x e Wl1 Wr1 b1) (srcOf e) (dstOf e)) (kHidden x e Wl1 Wr1 b1) (degCol e) Wl2 Wr2 (biasRow40 b2)

variable (m : (ℓ : Loc nD τ sig) → Buf (Elt Ideal) ℓ) (ρ : Dev nD → PrngReg)

/-- The first region's output array, from the launch memory. -/
theorem hidden_eq (hp0 : Region0.PayloadReads) (c : Dev nD) :
    W2 m ρ c (Proc.devRef .tc main_v20)
      = kHidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W2_arr m ρ c 6).trans (Region0.array_eq (V1 m ρ) hp0 c)).trans ?_
  show layer1 (after hostOps0 (W0 m ρ c) (Proc.devRef .tc main_v17)) (after hostOps0 (W0 m ρ c) (Proc.devRef .tc main_arg0))
      (fun p : Fin 100000 => after hostOps0 (W0 m ρ c) (Proc.devRef .tc main_v19) (ix2 p (0 : Fin 1)))
      (after hostOps0 (W0 m ρ c) (Proc.devRef .tc main_arg2)) (after hostOps0 (W0 m ρ c) (Proc.devRef .tc main_arg3))
      (fun q : Fin 32 => after hostOps0 (W0 m ρ c) (Proc.devRef .tc main_v18) (ix2 (0 : Fin 1) q)) = _
  rw [H0_main_v17, H0_main_arg0, H0_main_v19, H0_main_arg2, H0_main_arg3, H0_main_v18]
  rfl

/-- The result array at the last boundary, from the launch memory. -/
theorem out_eq (hp0 : Region0.PayloadReads) (hp1 : Region1.PayloadReads) (c : Dev nD) :
    W4 m ρ c (Proc.devRef .tc main_v33)
      = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine ((W4_arr m ρ c 6).trans (Region1.array_eq (V3 m ρ) hp1 c)).trans ?_
  show layer2 (after hostOps1 (W2 m ρ c) (Proc.devRef .tc main_v30)) (after hostOps1 (W2 m ρ c) (Proc.devRef .tc main_v20))
      (fun p : Fin 100000 => after hostOps1 (W2 m ρ c) (Proc.devRef .tc main_v32) (ix2 p (0 : Fin 1)))
      (after hostOps1 (W2 m ρ c) (Proc.devRef .tc main_arg5)) (after hostOps1 (W2 m ρ c) (Proc.devRef .tc main_arg6))
      (fun q : Fin 40 => after hostOps1 (W2 m ρ c) (Proc.devRef .tc main_v31) (ix2 (0 : Fin 1) q)) = _
  rw [H1_main_v30, H1_main_v20, H1_main_v32, H1_main_arg5, H1_main_arg6, H1_main_v31, hidden_eq m ρ hp0 c]
  -- the buffers the first region does not own keep the first stretch's contents
  have k1 : W2 m ρ c (Proc.devRef .tc main_v1) = srcOf (m ((c.tc : Thread nD τ).loc main_arg1)) :=
    (W2_of_ne m ρ c main_v1 (by decide)).trans (H0_main_v1 (W0 m ρ c))
  have k3 : W2 m ρ c (Proc.devRef .tc main_v3) = dstOf (m ((c.tc : Thread nD τ).loc main_arg1)) :=
    (W2_of_ne m ρ c main_v3 (by decide)).trans (H0_main_v3 (W0 m ρ c))
  have k7 : W2 m ρ c (Proc.devRef .tc main_v7) = degOf (dstOf (m ((c.tc : Thread nD τ).loc main_arg1))) :=
    (W2_of_ne m ρ c main_v7 (by decide)).trans (H0_main_v7 (W0 m ρ c))
  have k5 : W2 m ρ c (Proc.devRef .tc main_arg5) = (m ((c.tc : Thread nD τ).loc main_arg5)) :=
    (W2_of_ne m ρ c main_arg5 (by decide)).trans (H0_main_arg5 (W0 m ρ c))
  have k6 : W2 m ρ c (Proc.devRef .tc main_arg6) = (m ((c.tc : Thread nD τ).loc main_arg6)) :=
    (W2_of_ne m ρ c main_arg6 (by decide)).trans (H0_main_arg6 (W0 m ρ c))
  have k8 : W2 m ρ c (Proc.devRef .tc main_arg7) = (m ((c.tc : Thread nD τ).loc main_arg7)) :=
    (W2_of_ne m ρ c main_arg7 (by decide)).trans (H0_main_arg7 (W0 m ρ c))
  rw [k1, k3, k7, k5, k6, k8]
  rfl

end Cert.KernelIdeal.KernelValue

end
-- ==== Proof.RefLayers.lean ====
/-
  The reference's two dense layers as functions of the arrays they are applied to: the host operations from the
  neighbour sum `s`, the degree vector `d`, the features `x`, the two weight matrices and the bias to a layer's
  result — the mean (the sum over the floored degree, the degree broadcast along the features), the two matrix
  products, their sum, the bias broadcast over the nodes, and then the rectifier (layer one) or the row-wise
  log-softmax (layer two: the row maximum folded from `-∞` and taken once more against `-∞`, the shift, the
  exponentials' sum from `0`, its logarithm).
-/
import proofs.«132116_j70789650972706_1_alg».proof.Proof.Gen.ReferenceIdeal

noncomputable section

namespace Cert.ReferenceIdeal.Layers

open Cert.ReferenceIdeal Cert.ReferenceIdeal.Gen Idealize.ShloMosaic

variable {F : FTy → Type} [FloatOps F]

/-- The affine part of layer one: `(s / max d 1) · Wl + x · Wr + b`. -/
def affine1 (s : FVec F S100000x64 .f32) (d : FVec F S100000 .f32) (x : FVec F S100000x64 .f32)
    (Wl Wr : FVec F S64x32 .f32) (b : FVec F S32 .f32) : FVec F S100000x32 .f32 :=
  addf
    (addf
      (Host.dotGeneral dot_S100000x64_S64x32_S100000x32_1_0_0_1_n_n none
        (Host.divf s
          (broadcastInDim S100000x64 ![0, 1] bcast_S100000x1_S100000x64_0_1
            (broadcastInDim S100000x1 ![0] bcast_S100000_S100000x1_0
              (maximumf d (broadcastInDim S100000 ![] bcast_S_S100000 (constant S_ .f32 0x3F800000#32))))))
        Wl)
      (Host.dotGeneral dot_S100000x64_S64x32_S100000x32_1_0_0_1_n_n none x Wr))
    (broadcastInDim S100000x32 ![0, 1] bcast_S1x32_S100000x32_0_1 (broadcastInDim S1x32 ![1] bcast_S32_S1x32_1 b))

/-- Layer one: the affine part, rectified. -/
def refLayer1 (s : FVec F S100000x64 .f32) (d : FVec F S100000 .f32) (x : FVec F S100000x64 .f32)
    (Wl Wr : FVec F S64x32 .f32) (b : FVec F S32 .f32) : FVec F S100000x32 .f32 :=
  maximumf (affine1 s d x Wl Wr b) (broadcastInDim S100000x32 ![] bcast_S_S100000x32 (constant S_ .f32 0x00000000#32))

/-- The affine part of layer two. -/
def affine2 (s : FVec F S100000x32 .f32) (d : FVec F S100000 .f32) (x : FVec F S100000x32 .f32)
    (Wl Wr : FVec F S32x40 .f32) (b : FVec F S40 .f32) : FVec F S100000x40 .f32 :=
  addf
    (addf
      (Host.dotGeneral dot_S100000x32_S32x40_S100000x40_1_0_0_1_n_n none
        (Host.divf s
          (broadcastInDim S100000x32 ![0, 1] bcast_S100000x1_S100000x32_0_1
            (broadcastInDim S100000x1 ![0] bcast_S100000_S100000x1_0
              (maximumf d (broadcastInDim S100000 ![] bcast_S_S100000 (constant S_ .f32 0x3F800000#32))))))
        Wl)
      (Host.dotGeneral dot_S100000x32_S32x40_S100000x40_1_0_0_1_n_n none x Wr))
    (broadcastInDim S100000x40 ![0, 1] bcast_S1x40_S100000x40_0_1 (broadcastInDim S1x40 ![1] bcast_S40_S1x40_1 b))

/-- A matrix's rows shifted by their maxima. -/
def shifted (a : FVec F S100000x40 .f32) : FVec F S100000x40 .f32 :=
  subf a
    (broadcastInDim S100000x40 ![0, 1] bcast_S100000x1_S100000x40_0_1
      (broadcastInDim S100000x1 ![0] bcast_S100000_S100000x1_0
        (maximumf (broadcastInDim S100000 ![] bcast_S_S100000 (constant S_ .f32 0xFF800000#32))
          (Host.reduce FloatOps.maximumf a (constant S_ .f32 0xFF800000#32) reducesTo_S100000x40_S100000_d1 h_S_))))

/-- The row-wise log-softmax. -/
def logSoftmax (a : FVec F S100000x40 .f32) : FVec F S100000x40 .f32 :=
  subf (shifted a)
    (broadcastInDim S100000x40 ![0, 1] bcast_S100000x1_S100000x40_0_1
      (Host.log
        (broadcastInDim S100000x1 ![0] bcast_S100000_S100000x1_0
          (Host.reduceAdd (Host.exp (shifted a)) (constant S_ .f32 0x00000000#32) reducesTo_S100000x40_S100000_d1 h_S_))))

/-- Layer two: the log-softmax of the affine part. -/
def refLayer2 (s : FVec F S100000x32 .f32) (d : FVec F S100000 .f32) (x : FVec F S100000x32 .f32)
    (Wl Wr : FVec F S32x40 .f32) (b : FVec F S40 .f32) : FVec F S100000x40 .f32 :=
  logSoftmax (affine2 s d x Wl Wr b)

end Cert.ReferenceIdeal.Layers

end
-- ==== Proof.RefValue.lean ====
/-
  What the reference's run leaves in its result array, as one function of the argument arrays.

  @main's 84 host operations are cut, in order, into five stretches: the endpoint vectors, the first neighbour sum and
  the in-degree; the first dense layer; the second neighbour sum (of the first layer's result) and the in-degree once
  more; the second dense layer's affine part; its row-wise log-softmax. The buffers after the whole line are the five stretches' folds
  composed, and each stretch's fold at the buffers a later stretch reads is read off from ANY contents `U` before it —
  so no stretch's term is ever copied into the next. Composed, the result array holds

      out = layer₂ (Σ h) deg h      with   h = layer₁ (Σ x) deg x ,

  `Σ` the neighbour sum along the edge list and `deg` the in-degree (`outOf`).
-/
import proofs.«132116_j70789650972706_1_alg».proof.Proof.RefRunP
import proofs.«132116_j70789650972706_1_alg».proof.Proof.Sparse
import proofs.«132116_j70789650972706_1_alg».proof.Proof.RefLayers
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Sparse Cert.ReferenceIdeal.Layers Cert.ReferenceIdeal.ValueP

variable {F : FTy → Type} [FloatOps F]

/-- A value moved to a buffer's own type and back is the value: the transport along the type's equation, undone. -/
theorem ofBuf_toBuf {T : BufTy} (x : StableHlo.TRef sig T) (v : T.Contents (Elt F)) : x.ofBuf (x.toBuf v) = v := by
  rcases x with ⟨ref, rfl, od, us⟩; rfl

section Stretches
variable (U : Valuation τ sig (Elt F))

/-! ### The first stretch -/
theorem P_main_v13 : after (opsP (F := F)) U (Proc.devRef .tc main_v13)
    = aggr64 (U (Proc.devRef .tc main_arg0)) (srcOf (U (Proc.devRef .tc main_arg1))) (dstOf (U (Proc.devRef .tc main_arg1))) := by
  after_results_simp; rfl
theorem P_main_v17 : after (opsP (F := F)) U (Proc.devRef .tc main_v17) = degOf (dstOf (U (Proc.devRef .tc main_arg1))) := by
  after_results_simp; rfl
theorem P_main_v1 : after (opsP (F := F)) U (Proc.devRef .tc main_v1) = srcOf (U (Proc.devRef .tc main_arg1)) := by
  after_results_simp; rfl
theorem P_main_v3 : after (opsP (F := F)) U (Proc.devRef .tc main_v3) = dstOf (U (Proc.devRef .tc main_arg1)) := by
  after_results_simp; rfl
theorem P_main_arg0 : after (opsP (F := F)) U (Proc.devRef .tc main_arg0) = U (Proc.devRef .tc main_arg0) := by after_results_simp
theorem P_main_arg2 : after (opsP (F := F)) U (Proc.devRef .tc main_arg2) = U (Proc.devRef .tc main_arg2) := by after_results_simp
theorem P_main_arg3 : after (opsP (F := F)) U (Proc.devRef .tc main_arg3) = U (Proc.devRef .tc main_arg3) := by after_results_simp
theorem P_main_arg4 : after (opsP (F := F)) U (Proc.devRef .tc main_arg4) = U (Proc.devRef .tc main_arg4) := by after_results_simp
theorem P_main_arg5 : after (opsP (F := F)) U (Proc.devRef .tc main_arg5) = U (Proc.devRef .tc main_arg5) := by after_results_simp
theorem P_main_arg6 : after (opsP (F := F)) U (Proc.devRef .tc main_arg6) = U (Proc.devRef .tc main_arg6) := by after_results_simp
theorem P_main_arg7 : after (opsP (F := F)) U (Proc.devRef .tc main_arg7) = U (Proc.devRef .tc main_arg7) := by after_results_simp

/-! ### The first dense layer -/
theorem L1_main_v29 : after (opsL1 (F := F)) U (Proc.devRef .tc main_v29)
    = refLayer1 (U (Proc.devRef .tc main_v13)) (U (Proc.devRef .tc main_v17)) (U (Proc.devRef .tc main_arg0)) (U (Proc.devRef .tc main_arg2)) (U (Proc.devRef .tc main_arg3)) (U (Proc.devRef .tc main_arg4)) := by
  after_results_simp; simp only [cast_eq]; rfl
theorem L1_main_v1 : after (opsL1 (F := F)) U (Proc.devRef .tc main_v1) = U (Proc.devRef .tc main_v1) := by after_results_simp
theorem L1_main_v3 : after (opsL1 (F := F)) U (Proc.devRef .tc main_v3) = U (Proc.devRef .tc main_v3) := by after_results_simp
theorem L1_main_arg5 : after (opsL1 (F := F)) U (Proc.devRef .tc main_arg5) = U (Proc.devRef .tc main_arg5) := by after_results_simp
theorem L1_main_arg6 : after (opsL1 (F := F)) U (Proc.devRef .tc main_arg6) = U (Proc.devRef .tc main_arg6) := by after_results_simp
theorem L1_main_arg7 : after (opsL1 (F := F)) U (Proc.devRef .tc main_arg7) = U (Proc.devRef .tc main_arg7) := by after_results_simp

/-! ### The second neighbour sum -/
theorem Q_main_v39 : after (opsQ (F := F)) U (Proc.devRef .tc main_v39)
    = aggr32 (U (Proc.devRef .tc main_v29)) (U (Proc.devRef .tc main_v1)) (U (Proc.devRef .tc main_v3)) := by
  after_results_simp; rfl
theorem Q_main_v43 : after (opsQ (F := F)) U (Proc.devRef .tc main_v43) = degOf (U (Proc.devRef .tc main_v3)) := by
  after_results_simp; rfl
theorem Q_main_v29 : after (opsQ (F := F)) U (Proc.devRef .tc main_v29) = U (Proc.devRef .tc main_v29) := by after_results_simp
theorem Q_main_arg5 : after (opsQ (F := F)) U (Proc.devRef .tc main_arg5) = U (Proc.devRef .tc main_arg5) := by after_results_simp
theorem Q_main_arg6 : after (opsQ (F := F)) U (Proc.devRef .tc main_arg6) = U (Proc.devRef .tc main_arg6) := by after_results_simp
theorem Q_main_arg7 : after (opsQ (F := F)) U (Proc.devRef .tc main_arg7) = U (Proc.devRef .tc main_arg7) := by after_results_simp

/-! ### The second dense layer's affine part -/
theorem D2_main_v54 : after (opsD2 (F := F)) U (Proc.devRef .tc main_v54)
    = affine2 (U (Proc.devRef .tc main_v39)) (U (Proc.devRef .tc main_v43)) (U (Proc.devRef .tc main_v29)) (U (Proc.devRef .tc main_arg5)) (U (Proc.devRef .tc main_arg6)) (U (Proc.devRef .tc main_arg7)) := by
  after_results_simp; rfl

/-! ### The log-softmax -/
theorem S_main_v55 : after (opsS (F := F)) U (Proc.devRef .tc main_v55) = logSoftmax (U (Proc.devRef .tc main_v54)) := by
  after_results
  -- every value written to a buffer and read back from it
  simp only [ofBuf_toBuf]
  -- the stretch's one input, read at its own type, and its one result, written at its own type
  have ha : (TRef.of (T := ⟨S100000x40, .f32⟩) main_v54).ofBuf (U (Proc.devRef .tc main_v54)) = U (Proc.devRef .tc main_v54) := rfl
  rw [ha]
  refine (rfl : (TRef.of (T := ⟨S100000x40, .f32⟩) main_v55).toBuf _ = _).trans ?_
  unfold logSoftmax shifted
  rfl

end Stretches

/-- The first layer's result from the features, the edge list and the first layer's parameters. -/
def hiddenOf (x : FVec F S100000x64 .f32) (e : (⟨S2x1600000, .i32⟩ : BufTy).Contents (Elt F)) (Wl1 Wr1 : FVec F S64x32 .f32)
    (b1 : FVec F S32 .f32) : FVec F S100000x32 .f32 :=
  refLayer1 (aggr64 x (srcOf e) (dstOf e)) (degOf (dstOf e)) x Wl1 Wr1 b1

/-- The network's result from the eight arguments. -/
def outOf (x : FVec F S100000x64 .f32) (e : (⟨S2x1600000, .i32⟩ : BufTy).Contents (Elt F)) (Wl1 Wr1 : FVec F S64x32 .f32)
    (b1 : FVec F S32 .f32) (Wl2 Wr2 : FVec F S32x40 .f32) (b2 : FVec F S40 .f32) : FVec F S100000x40 .f32 :=
  refLayer2 (aggr32 (hiddenOf x e Wl1 Wr1 b1) (srcOf e) (dstOf e)) (degOf (dstOf e)) (hiddenOf x e Wl1 Wr1 b1) Wl2 Wr2 b2

/-- The result buffer after the whole line, from any contents `V` before it. -/
theorem result_eq (V : Valuation τ sig (Elt F)) :
    after (ops (F := F)) V (Proc.devRef .tc main_v55)
      = outOf (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  rw [ops_split, after_append, after_append, after_append, after_append, S_main_v55, D2_main_v54, Q_main_v39, Q_main_v43, Q_main_v29, Q_main_arg5,
    Q_main_arg6, Q_main_arg7, L1_main_v29, L1_main_v1, L1_main_v3, L1_main_arg5, L1_main_arg6, L1_main_arg7, P_main_v13,
    P_main_v17, P_main_v1, P_main_v3, P_main_arg0, P_main_arg2, P_main_arg3, P_main_arg4, P_main_arg5, P_main_arg6, P_main_arg7]
  unfold outOf hiddenOf refLayer2
  with_reducible rfl

/-- The reference's run with its result named: every weakly fair execution terminates with the result array at
    `outOf` of the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = outOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq (launchContents m c)), (h c).2⟩) (ValueP.run m ρ)

end Cert.ReferenceIdeal.RefValue

end
-- ==== Proof.Bridge.lean ====
/-
  The two programs compute one function.

  Both results have the shape `layer₂ (Σ h) … h …` with `h = layer₁ (Σ x) … x …`: the kernel's by its regions, which
  take the in-degree as a column and each bias as a row; the reference's by its host operations, which take the
  in-degree and the biases as plain vectors and do the broadcasting themselves. The column's row `p` is the in-degree
  of node `p` and a bias row's channel `q` is the bias at `q`, so the row functions are fed equal rows, node by
  node; the neighbour sums are the same operations of equal arrays. No law of the extended reals is needed beyond
  that: the sums, the quotient by the floored degree, the rectifier and the log-softmax are the same expressions.
-/
import proofs.«132116_j70789650972706_1_alg».proof.Proof.KernelValue
import proofs.«132116_j70789650972706_1_alg».proof.Proof.RefValue

noncomputable section

namespace Cert.Bridge

open Idealize.ShloMosaic Idealize.ShloMosaic.ValueIdx Cert.Sage
open Cert.ReferenceIdeal.Sparse Cert.ReferenceIdeal.Layers
open Cert.KernelIdeal.KernelValue Cert.ReferenceIdeal.RefValue

/-- The reference's first dense layer is the row function, node by node. -/
def Layer1Reads : Prop :=
  ∀ (s : FVec Ideal Cert.ReferenceIdeal.S100000x64 .f32) (d : FVec Ideal Cert.ReferenceIdeal.S100000 .f32)
    (x : FVec Ideal Cert.ReferenceIdeal.S100000x64 .f32) (Wl Wr : FVec Ideal Cert.ReferenceIdeal.S64x32 .f32)
    (b : FVec Ideal Cert.ReferenceIdeal.S32 .f32),
    refLayer1 (F := Ideal) s d x Wl Wr b = layer1 s x (fun p : Fin 100000 => d (ix1 p)) Wl Wr (fun c : Fin 32 => b (ix1 c))

/-- The reference's second dense layer likewise. -/
def Layer2Reads : Prop :=
  ∀ (s : FVec Ideal Cert.ReferenceIdeal.S100000x32 .f32) (d : FVec Ideal Cert.ReferenceIdeal.S100000 .f32)
    (x : FVec Ideal Cert.ReferenceIdeal.S100000x32 .f32) (Wl Wr : FVec Ideal Cert.ReferenceIdeal.S32x40 .f32)
    (b : FVec Ideal Cert.ReferenceIdeal.S40 .f32),
    refLayer2 (F := Ideal) s d x Wl Wr b = layer2 s x (fun p : Fin 100000 => d (ix1 p)) Wl Wr (fun c : Fin 40 => b (ix1 c))

/-- The first layers agree. -/
theorem hidden_eq (h1 : Layer1Reads) (x : FVec Ideal Cert.ReferenceIdeal.S100000x64 .f32)
    (e : (⟨Cert.ReferenceIdeal.S2x1600000, .i32⟩ : BufTy).Contents (Elt Ideal)) (Wl1 Wr1 : FVec Ideal Cert.ReferenceIdeal.S64x32 .f32)
    (b1 : FVec Ideal Cert.ReferenceIdeal.S32 .f32) :
    kHidden x e Wl1 Wr1 b1 = hiddenOf (F := Ideal) x e Wl1 Wr1 b1 := by
  unfold kHidden hiddenOf
  rw [degCol_eq, biasRow32_eq]
  exact (h1 _ _ _ _ _ _).symm

/-- The results agree. -/
theorem out_eq (h1 : Layer1Reads) (h2 : Layer2Reads) (x : FVec Ideal Cert.ReferenceIdeal.S100000x64 .f32)
    (e : (⟨Cert.ReferenceIdeal.S2x1600000, .i32⟩ : BufTy).Contents (Elt Ideal)) (Wl1 Wr1 : FVec Ideal Cert.ReferenceIdeal.S64x32 .f32)
    (b1 : FVec Ideal Cert.ReferenceIdeal.S32 .f32) (Wl2 Wr2 : FVec Ideal Cert.ReferenceIdeal.S32x40 .f32)
    (b2 : FVec Ideal Cert.ReferenceIdeal.S40 .f32) :
    kOut x e Wl1 Wr1 b1 Wl2 Wr2 b2 = outOf (F := Ideal) x e Wl1 Wr1 b1 Wl2 Wr2 b2 := by
  unfold kOut outOf
  rw [hidden_eq h1, degCol_eq, biasRow40_eq]
  exact (h2 _ _ _ _ _ _).symm

end Cert.Bridge

end
-- ==== Proof.Payload1.lean ====
/-
  The first layer's stored block, read one element at a time.

  The block's value at node `r` and output channel `q` is

      max ( (∑ₖ (s r k / max (d r) 1) · Wl k q + ∑ₖ x r k · Wr k q) + b q ) 0 ,

  the sums over the 64 input features. Each vector operation of the block is read at the index `(r, q)`: the
  elementwise ones act on the elements there; the degree column broadcast along the features is the column at row `r`;
  the bias row broadcast over the nodes is the row at channel `q`; a matrix product accumulated into zero is the sum,
  over the shared axis, of the left operand's row times the right operand's column; and a change of float format is the
  identity on the extended reals.
-/
import proofs.«132116_j70789650972706_1_alg».proof.Proof.Gen.KernelIdeal.Skeleton
import proofs.«132116_j70789650972706_1_alg».proof.Proof.Spec
import proofs.«132116_j70789650972706_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.LibColumns

/-- The first layer's contraction: a `[10000, 64]` by `[64, 32]` product over the shared axis of length 64. -/
abbrev D1 : DotDims S10000x64 S64x32 S10000x32 := dot_S10000x64_S64x32_S10000x32_1_0_0_1_n_n

/-- The left operand is read at the output's row … -/
theorem D1_lhs0 (i : S10000x32.Idx) (c : D1.contr.Idx) : (D1.lhsIdx i c 0).val = (i 0).val := by
  unfold DotDims.lhsIdx
  rw [dif_neg (show ¬(0 : Fin S10000x64.rank) ∈ D1.lhsBatch by decide),
    dif_pos (show (0 : Fin S10000x64.rank) ∈ D1.lhsNonContracting by decide)]
  rfl
/-- … and at the contraction coordinate on its second axis. -/
theorem D1_lhs1 (i : S10000x32.Idx) (c : D1.contr.Idx) : (D1.lhsIdx i c 1).val = (c ⟨0, by decide⟩).val :=
  D1.lhsIdx_val_of_single rfl i c
/-- The right operand is read at the contraction coordinate on its first axis … -/
theorem D1_rhs0 (i : S10000x32.Idx) (c : D1.contr.Idx) : (D1.rhsIdx i c 0).val = (c ⟨0, by decide⟩).val :=
  D1.rhsIdx_val_of_single rfl i c
/-- … and at the output's column. -/
theorem D1_rhs1 (i : S10000x32.Idx) (c : D1.contr.Idx) : (D1.rhsIdx i c 1).val = (i 1).val := by
  unfold DotDims.rhsIdx
  rw [dif_neg (show ¬(1 : Fin S64x32.rank) ∈ D1.rhsBatch by decide),
    dif_pos (show (1 : Fin S64x32.rank) ∈ D1.rhsNonContracting by decide)]
  rfl

/-- A matrix product accumulated into zero, read at `(r, q)`: the sum over the 64 shared coordinates of the left
    operand's row `r` times the right operand's column `q`. -/
theorem matmul1_apply {φ₁ φ₂ : FTy} (lhs : FVec Ideal S10000x64 φ₁) (rhs : FVec Ideal S64x32 φ₂) (r : Fin 10000) (q : Fin 32) :
    matmul (F := Ideal) dot_S10000x64_S64x32_S10000x32_1_0_0_1_n_n none lhs rhs
        (constant (F := Ideal) S10000x32 .f32 0x00000000#32) (ix2 r q)
      = ∑ k : Fin 64, lhs (ix2 r k) * rhs (ix2 k q) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 r q) ((contrEquiv1 D1 64 rfl rfl).symm k) = ix2 r k := funext fun a => Fin.ext (by
    match a with
    | ⟨0, _⟩ => exact D1_lhs0 _ _
    | ⟨1, _⟩ => exact (D1_lhs1 _ _).trans hk)
  have er : D1.rhsIdx (ix2 r q) ((contrEquiv1 D1 64 rfl rfl).symm k) = ix2 k q := funext fun a => Fin.ext (by
    match a with
    | ⟨0, _⟩ => exact (D1_rhs0 _ _).trans hk
    | ⟨1, _⟩ => exact D1_rhs1 _ _)
  rw [el, er]

/-- The first layer's stored value at node `r` and channel `q`: the floored degree divides the neighbour sums, the two
    products are sums over the 64 input features, the bias row is read at its one row, and the result is rectified. -/
theorem pay1_apply (v0 : Vec Ideal S10000x1 .f32) (v4 v9 : Vec Ideal S10000x64 .f32) (v11 v13 : Vec Ideal S64x32 .f32)
    (v18 : Vec Ideal S1x32 .f32) (r : Fin 10000) (q : Fin 32) :
    k0_pay1 (F := Ideal) v0 v4 v9 v11 v13 v18 (ix2 r q)
      = Cert.Sage.hiddenRow (fun k : Fin 64 => v4 (ix2 r k)) (fun k : Fin 64 => v9 (ix2 r k)) (v0 (ix2 r (0 : Fin 1)))
          (fun (k : Fin 64) (c : Fin 32) => v11 (ix2 k c)) (fun (k : Fin 64) (c : Fin 32) => v13 (ix2 k c))
          (fun c : Fin 32 => v18 (ix2 (0 : Fin 1) c)) q := by
  unfold k0_pay1
  rw [maximumf_apply, addf_apply, addf_apply, broadcast_apply, matmul1_apply, matmul1_apply, broadcastTo_1b_ab_apply,
    shapeCast_self]
  simp only [truncf_apply, divf_apply, shapeCast_self, broadcastTo_a1_ab_apply, maximumf_apply, broadcast_apply]
  unfold Cert.Sage.hiddenRow Cert.Sage.affine
  rfl

end Cert.KernelIdeal.Payload

end
-- ==== Proof.Payload2.lean ====
/-
  The second layer's stored block, read one element at a time.

  With `a q = (∑ₖ (s r k / max (d r) 1) · Wl k q + ∑ₖ x r k · Wr k q) + b q` the affine part of node `r` (the sums over
  the 32 hidden features), the block's value at node `r` and channel `q` is the row-wise log-softmax

      (a q − M) − log (∑_q' exp (a q' − M)),     M = the maximum of the row `a`, folded from −∞,

  over the 40 channels. The elementwise operations are read at the index `(r, q)`; a matrix product accumulated into
  zero is a sum over the shared axis; a reduction along the channels, read at node `r`, is the fold (of `max`, of `+`)
  over the row's 40 entries; its result, viewed as a column and spread back along the channels, is read at `(r, q)` as
  the reduction at `r`.
-/
import proofs.«132116_j70789650972706_1_alg».proof.Proof.Gen.KernelIdeal.Skeleton
import proofs.«132116_j70789650972706_1_alg».proof.Proof.Spec
import proofs.«132116_j70789650972706_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.LibColumns

/-- The second layer's contraction: a `[10000, 32]` by `[32, 40]` product over the shared axis of length 32. -/
abbrev D2 : DotDims S10000x32 S32x40 S10000x40 := dot_S10000x32_S32x40_S10000x40_1_0_0_1_n_n

/-- The left operand is read at the output's row … -/
theorem D2_lhs0 (i : S10000x40.Idx) (c : D2.contr.Idx) : (D2.lhsIdx i c 0).val = (i 0).val := by
  unfold DotDims.lhsIdx
  rw [dif_neg (show ¬(0 : Fin S10000x32.rank) ∈ D2.lhsBatch by decide),
    dif_pos (show (0 : Fin S10000x32.rank) ∈ D2.lhsNonContracting by decide)]
  rfl
/-- … and at the contraction coordinate on its second axis. -/
theorem D2_lhs1 (i : S10000x40.Idx) (c : D2.contr.Idx) : (D2.lhsIdx i c 1).val = (c ⟨0, by decide⟩).val :=
  D2.lhsIdx_val_of_single rfl i c
/-- The right operand is read at the contraction coordinate on its first axis … -/
theorem D2_rhs0 (i : S10000x40.Idx) (c : D2.contr.Idx) : (D2.rhsIdx i c 0).val = (c ⟨0, by decide⟩).val :=
  D2.rhsIdx_val_of_single rfl i c
/-- … and at the output's column. -/
theorem D2_rhs1 (i : S10000x40.Idx) (c : D2.contr.Idx) : (D2.rhsIdx i c 1).val = (i 1).val := by
  unfold DotDims.rhsIdx
  rw [dif_neg (show ¬(1 : Fin S32x40.rank) ∈ D2.rhsBatch by decide),
    dif_pos (show (1 : Fin S32x40.rank) ∈ D2.rhsNonContracting by decide)]
  rfl

/-- A matrix product accumulated into zero, read at `(r, q)`: the sum over the 32 shared coordinates of the left
    operand's row `r` times the right operand's column `q`. -/
theorem matmul2_apply {φ₁ φ₂ : FTy} (lhs : FVec Ideal S10000x32 φ₁) (rhs : FVec Ideal S32x40 φ₂) (r : Fin 10000) (q : Fin 40) :
    matmul (F := Ideal) dot_S10000x32_S32x40_S10000x40_1_0_0_1_n_n none lhs rhs
        (constant (F := Ideal) S10000x40 .f32 0x00000000#32) (ix2 r q)
      = ∑ k : Fin 32, lhs (ix2 r k) * rhs (ix2 k q) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 r q) ((contrEquiv1 D2 32 rfl rfl).symm k) = ix2 r k := funext fun a => Fin.ext (by
    match a with
    | ⟨0, _⟩ => exact D2_lhs0 _ _
    | ⟨1, _⟩ => exact (D2_lhs1 _ _).trans hk)
  have er : D2.rhsIdx (ix2 r q) ((contrEquiv1 D2 32 rfl rfl).symm k) = ix2 k q := funext fun a => Fin.ext (by
    match a with
    | ⟨0, _⟩ => exact (D2_rhs0 _ _).trans hk
    | ⟨1, _⟩ => exact D2_rhs1 _ _)
  rw [el, er]

/-- An exponential of a vector acts element by element … -/
theorem exp_apply {s : Shape} {φ : FTy} (v : FVec Ideal s φ) (i : s.Idx) : Idealize.ShloMosaic.exp v i = Ideal.exp (v i) := rfl
/-- … and so does a logarithm. -/
theorem log_apply {s : Shape} {φ : FTy} (v : FVec Ideal s φ) (i : s.Idx) : Idealize.ShloMosaic.log v i = Ideal.log (v i) := rfl

/-- The index of a `[10000, 40]` matrix got by inserting channel `k` into the row index `r` is `(r, k)`. -/
theorem lift_ix1 (h : S10000x40.Reduces [1] S10000) (r : Fin 10000) (k : Fin 40) : h.lift (ix1 r) k = ix2 r k :=
  funext fun ax => Fin.ext (by
    match ax with
    | ⟨0, _⟩ => rfl
    | ⟨1, _⟩ => rfl)

/-- A row-wise maximum folded from `-∞`, read at node `r`: the maximum of the row's 40 entries. -/
theorem rowMax_apply (a : FVec Ideal S10000x40 .f32) (h : S10000x40.Reduces [1] S10000) (hφ : FKind.Formats .f32)
    (hacc : (0xFF800000#32 : BitVec 32) = FKind.maximumf.neutral .f32 hφ) (r : Fin 10000) :
    multiReduction .maximumf [1] S10000 a 0xFF800000#32 h hφ hacc (ix1 r)
      = Cert.Sage.rowMax (fun c : Fin 40 => a (ix2 r c)) := by
  refine (Ideal.multiReduction_maximumf_single a _ h hφ hacc (ix1 r)).trans ?_
  unfold Cert.Sage.rowMax
  show (Finset.univ : Finset (Fin 40)).fold max (Ideal.ofBits .f32 0xFF800000#32) (fun k : Fin 40 => a (h.lift (ix1 r) k)) = _
  simp only [lift_ix1]

/-- A row-wise sum from `0`, read at node `r`: the sum of the row's 40 entries. -/
theorem rowSum_apply (a : FVec Ideal S10000x40 .f32) (h : S10000x40.Reduces [1] S10000) (hφ : FKind.Formats .f32)
    (hacc : (0x00000000#32 : BitVec 32) = FKind.add.neutral .f32 hφ) (r : Fin 10000) :
    multiReduction .add [1] S10000 a 0x00000000#32 h hφ hacc (ix1 r) = ∑ c : Fin 40, a (ix2 r c) := by
  refine (Ideal.multiReduction_add_single a _ h hφ hacc (ix1 r)).trans ?_
  show ∑ k : Fin 40, a (h.lift (ix1 r) k) = _
  simp only [lift_ix1]

/-- A per-node vector viewed as a column and spread along the channels reads, at `(r, c)`, the vector at `r`. -/
theorem column_apply (w : FVec Ideal S10000 .f32) (hc : S10000.ShapeCasts S10000x1) (hb : S10000x1.Broadcasts S10000x40)
    (r : Fin 10000) (c : Fin 40) : broadcastTo S10000x40 (shapeCast S10000x1 w hc) hb (ix2 r c) = w (ix1 r) := by
  rw [broadcastTo_a1_ab_apply, shapeCast_a_a1_apply]

/-- The same with a logarithm taken on the column. -/
theorem logColumn_apply (w : FVec Ideal S10000 .f32) (hc : S10000.ShapeCasts S10000x1) (hb : S10000x1.Broadcasts S10000x40)
    (r : Fin 10000) (c : Fin 40) :
    broadcastTo S10000x40 (Idealize.ShloMosaic.log (shapeCast S10000x1 w hc)) hb (ix2 r c) = Ideal.log (w (ix1 r)) := by
  rw [broadcastTo_a1_ab_apply, log_apply, shapeCast_a_a1_apply]

/-- The row-wise log-softmax as the block computes it, read at node `r` and channel `q`: the entry minus the row's
    maximum, minus the logarithm of the sum of the exponentials of the row's shifted entries. -/
theorem logSoftmax_apply (a : FVec Ideal S10000x40 .f32) (h : S10000x40.Reduces [1] S10000) (hφ : FKind.Formats .f32)
    (hmax : (0xFF800000#32 : BitVec 32) = FKind.maximumf.neutral .f32 hφ)
    (hadd : (0x00000000#32 : BitVec 32) = FKind.add.neutral .f32 hφ)
    (hc : S10000.ShapeCasts S10000x1) (hb : S10000x1.Broadcasts S10000x40) (r : Fin 10000) (q : Fin 40) :
    subf (subf a (broadcastTo S10000x40 (shapeCast S10000x1 (multiReduction .maximumf [1] S10000 a 0xFF800000#32 h hφ hmax) hc) hb))
        (broadcastTo S10000x40 (Idealize.ShloMosaic.log (shapeCast S10000x1
          (multiReduction .add [1] S10000
            (Idealize.ShloMosaic.exp (subf a (broadcastTo S10000x40 (shapeCast S10000x1
              (multiReduction .maximumf [1] S10000 a 0xFF800000#32 h hφ hmax) hc) hb)))
            0x00000000#32 h hφ hadd) hc)) hb) (ix2 r q)
      = Cert.Sage.logSoftmaxRow (fun c : Fin 40 => a (ix2 r c)) q := by
  have hshift : ∀ c : Fin 40,
      subf a (broadcastTo S10000x40 (shapeCast S10000x1 (multiReduction .maximumf [1] S10000 a 0xFF800000#32 h hφ hmax) hc) hb) (ix2 r c)
        = a (ix2 r c) - Cert.Sage.rowMax (fun c : Fin 40 => a (ix2 r c)) := fun c => by
    rw [subf_apply, column_apply, rowMax_apply]
  rw [subf_apply, hshift, logColumn_apply, rowSum_apply]
  simp only [exp_apply, hshift]
  rfl

/-- The second layer's stored value at node `r` and channel `q`: the log-softmax, along the 40 channels, of the affine
    part, whose two products are sums over the 32 hidden features. -/
theorem pay2_apply (v0 : Vec Ideal S10000x1 .f32) (v4 v9 : Vec Ideal S10000x32 .f32) (v12 v14 : Vec Ideal S32x40 .f32)
    (v19 : Vec Ideal S1x40 .f32) (r : Fin 10000) (q : Fin 40) :
    k1_pay1 (F := Ideal) v0 v4 v9 v12 v14 v19 (ix2 r q)
      = Cert.Sage.outRow (fun k : Fin 32 => v4 (ix2 r k)) (fun k : Fin 32 => v9 (ix2 r k)) (v0 (ix2 r (0 : Fin 1)))
          (fun (k : Fin 32) (c : Fin 40) => v12 (ix2 k c)) (fun (k : Fin 32) (c : Fin 40) => v14 (ix2 k c))
          (fun c : Fin 40 => v19 (ix2 (0 : Fin 1) c)) q := by
  unfold k1_pay1
  refine (logSoftmax_apply _ _ _ _ _ _ _ r q).trans ?_
  unfold Cert.Sage.outRow
  refine congrArg (fun f => Cert.Sage.logSoftmaxRow f q) (funext fun c => ?_)
  rw [addf_apply, addf_apply, matmul2_apply, matmul2_apply, broadcastTo_1b_ab_apply, shapeCast_self]
  simp only [truncf_apply, divf_apply, shapeCast_self, broadcastTo_a1_ab_apply, maximumf_apply, broadcast_apply]
  unfold Cert.Sage.affine
  rfl

end Cert.KernelIdeal.Payload

end
-- ==== Proof.RefReads.lean ====
/-
  The reference's host operations read at one entry.

  A broadcast reads its operand at the coordinates it keeps: a scalar everywhere, a vector along the axis it lies on, a
  unit axis at its only position. A matrix product with one contracted axis reads, at row `p` and column `c`, the sum
  over the contracted coordinate `k` of `l p k · r k c`. From these: the floored degree `max (d p) 1` as the divisor of
  every feature of node `p`, the mean's entry `s p k / max (d p) 1`, and the bias `b c` at every node.
-/
import proofs.«132116_j70789650972706_1_alg».proof.Proof.RefLayers
import proofs.«132116_j70789650972706_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LayersSpec

open Idealize.ShloMosaic Idealize.ShloMosaic.ValueIdx Cert.ReferenceIdeal Cert.ReferenceIdeal.Gen Cert.ReferenceIdeal.Layers

section Broadcasts
variable {α : Type}

/-- A scalar broadcast to a vector reads the scalar everywhere. -/
theorem bcast_scalar_vec {n : ℕ} (h : (⟨0, ![]⟩ : Shape).BroadcastsInDim ⟨1, ![n]⟩ (![] : Fin 0 → Fin 1))
    (x : (⟨0, ![]⟩ : Shape).Idx → α) (p : Fin n) :
    broadcastInDim ⟨1, ![n]⟩ (![] : Fin 0 → Fin 1) h x (ix1 p) = x ix0 :=
  broadcastInDim_apply _ h x _ _ fun a => a.elim0

/-- A scalar broadcast to a matrix reads the scalar everywhere. -/
theorem bcast_scalar_mat {n m : ℕ} (h : (⟨0, ![]⟩ : Shape).BroadcastsInDim ⟨2, ![n, m]⟩ (![] : Fin 0 → Fin 2))
    (x : (⟨0, ![]⟩ : Shape).Idx → α) (p : Fin n) (c : Fin m) :
    broadcastInDim ⟨2, ![n, m]⟩ (![] : Fin 0 → Fin 2) h x (ix2 p c) = x ix0 :=
  broadcastInDim_apply _ h x _ _ fun a => a.elim0

/-- A vector as a one-column matrix reads the vector at the row. -/
theorem bcast_vec_col {n : ℕ} (h : (⟨1, ![n]⟩ : Shape).BroadcastsInDim ⟨2, ![n, 1]⟩ (![0] : Fin 1 → Fin 2))
    (x : (⟨1, ![n]⟩ : Shape).Idx → α) (p : Fin n) (q : Fin 1) :
    broadcastInDim ⟨2, ![n, 1]⟩ (![0] : Fin 1 → Fin 2) h x (ix2 p q) = x (ix1 p) :=
  broadcastInDim_apply _ h x _ _ fun a => match a with
    | ⟨0, _⟩ => by
      show p.val = if n = 1 then 0 else p.val
      split
      · omega
      · rfl

/-- A one-column matrix broadcast along the columns reads the column at the row. -/
theorem bcast_col_mat {n m : ℕ} (h : (⟨2, ![n, 1]⟩ : Shape).BroadcastsInDim ⟨2, ![n, m]⟩ (![0, 1] : Fin 2 → Fin 2))
    (x : (⟨2, ![n, 1]⟩ : Shape).Idx → α) (p : Fin n) (c : Fin m) :
    broadcastInDim ⟨2, ![n, m]⟩ (![0, 1] : Fin 2 → Fin 2) h x (ix2 p c) = x (ix2 p (0 : Fin 1)) :=
  broadcastInDim_apply _ h x _ _ fun a => match a with
    | ⟨0, _⟩ => by
      show p.val = if n = 1 then 0 else p.val
      split
      · omega
      · rfl
    | ⟨1, _⟩ => rfl

/-- A vector as a one-row matrix reads the vector at the column. -/
theorem bcast_vec_row {m : ℕ} (h : (⟨1, ![m]⟩ : Shape).BroadcastsInDim ⟨2, ![1, m]⟩ (![1] : Fin 1 → Fin 2))
    (x : (⟨1, ![m]⟩ : Shape).Idx → α) (q : Fin 1) (c : Fin m) :
    broadcastInDim ⟨2, ![1, m]⟩ (![1] : Fin 1 → Fin 2) h x (ix2 q c) = x (ix1 c) :=
  broadcastInDim_apply _ h x _ _ fun a => match a with
    | ⟨0, _⟩ => by
      show c.val = if m = 1 then 0 else c.val
      split
      · omega
      · rfl

/-- A one-row matrix broadcast along the rows reads the row at the column. -/
theorem bcast_row_mat {n m : ℕ} (h : (⟨2, ![1, m]⟩ : Shape).BroadcastsInDim ⟨2, ![n, m]⟩ (![0, 1] : Fin 2 → Fin 2))
    (x : (⟨2, ![1, m]⟩ : Shape).Idx → α) (p : Fin n) (c : Fin m) :
    broadcastInDim ⟨2, ![n, m]⟩ (![0, 1] : Fin 2 → Fin 2) h x (ix2 p c) = x (ix2 (0 : Fin 1) c) :=
  broadcastInDim_apply _ h x _ _ fun a => match a with
    | ⟨0, _⟩ => rfl
    | ⟨1, _⟩ => by
      show c.val = if m = 1 then 0 else c.val
      split
      · omega
      · rfl

end Broadcasts

/-! The matrix product S100000x64 · S64x32: the operand indices at a result index and a contraction coordinate. -/

theorem dot1_lhs_0 (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide),
    dif_pos (show (0 : Fin S100000x64.rank) ∈ dot_S100000x64_S64x32_S100000x32_1_0_0_1_n_n.lhsNonContracting by decide)]
  rfl

theorem dot1_lhs_1 (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q

theorem dot1_rhs_0 (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q

theorem dot1_rhs_1 (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide),
    dif_pos (show (1 : Fin S64x32.rank) ∈ dot_S100000x64_S64x32_S100000x32_1_0_0_1_n_n.rhsNonContracting by decide)]
  rfl

/-- The product at row `p` and column `c` is the sum over the contracted coordinate of the left operand's row entry
    times the right operand's column entry. -/
theorem dot1_apply (l : FVec Ideal S100000x64 .f32) (r : FVec Ideal S64x32 .f32) (p : Fin 100000) (c : Fin 32) :
    Host.dotGeneral (F := Ideal) dot_S100000x64_S64x32_S100000x32_1_0_0_1_n_n none l r (ix2 p c)
      = ∑ k : Fin 64, l (ix2 p k) * r (ix2 k c) := by
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx (ix2 p c) ((ValueIdx.contrEquiv1 dot_S100000x64_S64x32_S100000x32_1_0_0_1_n_n 64 rfl rfl).symm k) = ix2 p k :=
    funext fun a => Fin.ext (by
      match a with
      | ⟨0, _⟩ => exact dot1_lhs_0 _ _
      | ⟨1, _⟩ => exact (dot1_lhs_1 _ _).trans hk)
  have er : dot_S100000x64_S64x32_S100000x32_1_0_0_1_n_n.rhsIdx (ix2 p c) ((ValueIdx.contrEquiv1 dot_S100000x64_S64x32_S100000x32_1_0_0_1_n_n 64 rfl rfl).symm k) = ix2 k c :=
    funext fun a => Fin.ext (by
      match a with
      | ⟨0, _⟩ => exact (dot1_rhs_0 _ _).trans hk
      | ⟨1, _⟩ => exact dot1_rhs_1 _ _)
  rw [el, er]

/-! The matrix product S100000x32 · S32x40: the operand indices at a result index and a contraction coordinate. -/

theorem dot2_lhs_0 (i : S100000x40.Idx) (q : dot_S100000x32_S32x40_S100000x40_1_0_0_1_n_n.contr.Idx) :
    (dot_S100000x32_S32x40_S100000x40_1_0_0_1_n_n.lhsIdx i q 0).val = (i 0).val := by
  unfold DotDims.lhsIdx
  rw [dif_neg (show ¬(0 : Fin S100000x32.rank) ∈ dot_S100000x32_S32x40_S100000x40_1_0_0_1_n_n.lhsBatch by decide),
    dif_pos (show (0 : Fin S100000x32.rank) ∈ dot_S100000x32_S32x40_S100000x40_1_0_0_1_n_n.lhsNonContracting by decide)]
  rfl

theorem dot2_lhs_1 (i : S100000x40.Idx) (q : dot_S100000x32_S32x40_S100000x40_1_0_0_1_n_n.contr.Idx) :
    (dot_S100000x32_S32x40_S100000x40_1_0_0_1_n_n.lhsIdx i q 1).val = (q ⟨0, by decide⟩).val :=
  dot_S100000x32_S32x40_S100000x40_1_0_0_1_n_n.lhsIdx_val_of_single rfl i q

theorem dot2_rhs_0 (i : S100000x40.Idx) (q : dot_S100000x32_S32x40_S100000x40_1_0_0_1_n_n.contr.Idx) :
    (dot_S100000x32_S32x40_S100000x40_1_0_0_1_n_n.rhsIdx i q 0).val = (q ⟨0, by decide⟩).val :=
  dot_S100000x32_S32x40_S100000x40_1_0_0_1_n_n.rhsIdx_val_of_single rfl i q

theorem dot2_rhs_1 (i : S100000x40.Idx) (q : dot_S100000x32_S32x40_S100000x40_1_0_0_1_n_n.contr.Idx) :
    (dot_S100000x32_S32x40_S100000x40_1_0_0_1_n_n.rhsIdx i q 1).val = (i 1).val := by
  unfold DotDims.rhsIdx
  rw [dif_neg (show ¬(1 : Fin S32x40.rank) ∈ dot_S100000x32_S32x40_S100000x40_1_0_0_1_n_n.rhsBatch by decide),
    dif_pos (show (1 : Fin S32x40.rank) ∈ dot_S100000x32_S32x40_S100000x40_1_0_0_1_n_n.rhsNonContracting by decide)]
  rfl

/-- The product at row `p` and column `c` is the sum over the contracted coordinate of the left operand's row entry
    times the right operand's column entry. -/
theorem dot2_apply (l : FVec Ideal S100000x32 .f32) (r : FVec Ideal S32x40 .f32) (p : Fin 100000) (c : Fin 40) :
    Host.dotGeneral (F := Ideal) dot_S100000x32_S32x40_S100000x40_1_0_0_1_n_n none l r (ix2 p c)
      = ∑ k : Fin 32, l (ix2 p k) * r (ix2 k c) := by
  simp only [Host.dotGeneral]
  rw [Ideal.dotGeneral_apply, ← Equiv.sum_comp (ValueIdx.contrEquiv1 dot_S100000x32_S32x40_S100000x40_1_0_0_1_n_n 32 rfl rfl).symm]
  refine Finset.sum_congr rfl fun k _ => ?_
  have hk := ValueIdx.contrEquiv1_symm_val dot_S100000x32_S32x40_S100000x40_1_0_0_1_n_n 32 rfl rfl k
  have el : dot_S100000x32_S32x40_S100000x40_1_0_0_1_n_n.lhsIdx (ix2 p c) ((ValueIdx.contrEquiv1 dot_S100000x32_S32x40_S100000x40_1_0_0_1_n_n 32 rfl rfl).symm k) = ix2 p k :=
    funext fun a => Fin.ext (by
      match a with
      | ⟨0, _⟩ => exact dot2_lhs_0 _ _
      | ⟨1, _⟩ => exact (dot2_lhs_1 _ _).trans hk)
  have er : dot_S100000x32_S32x40_S100000x40_1_0_0_1_n_n.rhsIdx (ix2 p c) ((ValueIdx.contrEquiv1 dot_S100000x32_S32x40_S100000x40_1_0_0_1_n_n 32 rfl rfl).symm k) = ix2 k c :=
    funext fun a => Fin.ext (by
      match a with
      | ⟨0, _⟩ => exact (dot2_rhs_0 _ _).trans hk
      | ⟨1, _⟩ => exact dot2_rhs_1 _ _)
  rw [el, er]

section Composite

/-- The floored degree, made a column and broadcast along `m` features, read at node `p`: `max (d p) 1` whatever the feature. -/
theorem degFloor_apply {m : ℕ} (h0 : S_.BroadcastsInDim S100000 (![] : Fin 0 → Fin 1))
    (h1 : S100000.BroadcastsInDim S100000x1 (![0] : Fin 1 → Fin 2))
    (h2 : S100000x1.BroadcastsInDim ⟨2, ![100000, m]⟩ (![0, 1] : Fin 2 → Fin 2))
    (d : FVec Ideal S100000 .f32) (p : Fin 100000) (k : Fin m) :
    broadcastInDim ⟨2, ![100000, m]⟩ (![0, 1] : Fin 2 → Fin 2) h2
        (broadcastInDim S100000x1 (![0] : Fin 1 → Fin 2) h1
          (maximumf d (broadcastInDim S100000 (![] : Fin 0 → Fin 1) h0 (constant (F := Ideal) S_ .f32 0x3F800000#32)))) (ix2 p k)
      = max (d (ix1 p)) Cert.Sage.oneW := by
  refine (bcast_col_mat h2 _ p k).trans ((bcast_vec_col h1 _ p 0).trans ?_)
  rw [maximumf_apply, bcast_scalar_vec h0 _ p]
  rfl

/-- The mean's entry: the neighbour sum's entry over the floored degree of its node. -/
theorem mean_apply {m : ℕ} (h0 : S_.BroadcastsInDim S100000 (![] : Fin 0 → Fin 1))
    (h1 : S100000.BroadcastsInDim S100000x1 (![0] : Fin 1 → Fin 2))
    (h2 : S100000x1.BroadcastsInDim ⟨2, ![100000, m]⟩ (![0, 1] : Fin 2 → Fin 2))
    (s : FVec Ideal ⟨2, ![100000, m]⟩ .f32) (d : FVec Ideal S100000 .f32) (p : Fin 100000) (k : Fin m) :
    Host.divf (F := Ideal) s
        (broadcastInDim ⟨2, ![100000, m]⟩ (![0, 1] : Fin 2 → Fin 2) h2
          (broadcastInDim S100000x1 (![0] : Fin 1 → Fin 2) h1
            (maximumf d (broadcastInDim S100000 (![] : Fin 0 → Fin 1) h0 (constant (F := Ideal) S_ .f32 0x3F800000#32))))) (ix2 p k)
      = Ideal.div (s (ix2 p k)) (max (d (ix1 p)) Cert.Sage.oneW) :=
  congrArg (Ideal.div (s (ix2 p k))) (degFloor_apply h0 h1 h2 d p k)

/-- The bias, made a row and broadcast over the nodes, read at channel `c`. -/
theorem bias_apply {m : ℕ} (h1 : (⟨1, ![m]⟩ : Shape).BroadcastsInDim ⟨2, ![1, m]⟩ (![1] : Fin 1 → Fin 2))
    (h2 : (⟨2, ![1, m]⟩ : Shape).BroadcastsInDim ⟨2, ![100000, m]⟩ (![0, 1] : Fin 2 → Fin 2))
    (b : FVec Ideal ⟨1, ![m]⟩ .f32) (p : Fin 100000) (c : Fin m) :
    broadcastInDim ⟨2, ![100000, m]⟩ (![0, 1] : Fin 2 → Fin 2) h2 (broadcastInDim ⟨2, ![1, m]⟩ (![1] : Fin 1 → Fin 2) h1 b) (ix2 p c)
      = b (ix1 c) :=
  (bcast_row_mat h2 _ p c).trans (bcast_vec_row h1 b 0 c)

end Composite

end Cert.ReferenceIdeal.LayersSpec

end
-- ==== Proof.RefLayer1.lean ====
/-
  The reference's first layer is the specification's, entry by entry.

  At node `p` and channel `c` the composed host operations read: the two matrix products as sums over the 64 input
  features, the mean's entries as the neighbour sum over `max (d p) 1`, the bias at `c`, and the rectifier's floor as the
  word of `0.0` — the specification's `hiddenRow` of row `p`.
-/
import proofs.«132116_j70789650972706_1_alg».proof.Proof.RefReads

noncomputable section

namespace Cert.ReferenceIdeal.LayersSpec

open Idealize.ShloMosaic Idealize.ShloMosaic.ValueIdx Cert.ReferenceIdeal Cert.ReferenceIdeal.Gen Cert.ReferenceIdeal.Layers

/-- The affine part of layer one at node `p` and channel `c`. -/
theorem affine1_apply (s : FVec Ideal S100000x64 .f32) (d : FVec Ideal S100000 .f32) (x : FVec Ideal S100000x64 .f32)
    (Wl Wr : FVec Ideal S64x32 .f32) (b : FVec Ideal S32 .f32) (p : Fin 100000) (c : Fin 32) :
    affine1 (F := Ideal) s d x Wl Wr b (ix2 p c)
      = Cert.Sage.affine (fun k : Fin 64 => s (ix2 p k)) (fun k : Fin 64 => x (ix2 p k)) (d (ix1 p))
          (fun (k : Fin 64) (q : Fin 32) => Wl (ix2 k q)) (fun (k : Fin 64) (q : Fin 32) => Wr (ix2 k q))
          (fun q : Fin 32 => b (ix1 q)) c := by
  unfold affine1 Cert.Sage.affine
  rw [addf_apply, addf_apply, dot1_apply, dot1_apply]
  refine congrArg₂ (· + ·) (congrArg₂ (· + ·) (Finset.sum_congr rfl fun k _ => ?_) rfl) ?_
  · exact congrArg (· * Wl (ix2 k c)) (mean_apply bcast_S_S100000 bcast_S100000_S100000x1_0 bcast_S100000x1_S100000x64_0_1 s d p k)
  · exact bias_apply bcast_S32_S1x32_1 bcast_S1x32_S100000x32_0_1 b p c

theorem refLayer1_eq (s : FVec Ideal S100000x64 .f32) (d : FVec Ideal S100000 .f32) (x : FVec Ideal S100000x64 .f32)
    (Wl Wr : FVec Ideal S64x32 .f32) (b : FVec Ideal S32 .f32) :
    refLayer1 (F := Ideal) s d x Wl Wr b
      = Cert.Sage.layer1 s x (fun p : Fin 100000 => d (ix1 p)) Wl Wr (fun c : Fin 32 => b (ix1 c)) := by
  funext i
  obtain ⟨p, c, rfl⟩ : ∃ (p : Fin 100000) (c : Fin 32), i = ix2 p c := ⟨_, _, Cert.Sage.eq_ix2_rowOf_colOf i⟩
  rw [Cert.Sage.layer1_apply]
  unfold refLayer1 Cert.Sage.hiddenRow
  rw [maximumf_apply, affine1_apply, bcast_scalar_mat bcast_S_S100000x32 _ p c]
  rfl

end Cert.ReferenceIdeal.LayersSpec

end
-- ==== Proof.RefLayer2.lean ====
/-
  The reference's second layer is the specification's, entry by entry.

  Over one axis a sum from the word of `0.0` is the plain sum of the row, and a fold of the maximum from the word of
  `-∞` is the row's maximum; taking the maximum with `-∞` once more changes nothing. So at node `p` and channel `c`
  the composed host operations read the affine part's entry less the row's maximum, less the logarithm of the sum of
  the shifted row's exponentials: the specification's `outRow` of row `p`.
-/
import proofs.«132116_j70789650972706_1_alg».proof.Proof.RefReads

noncomputable section

namespace Cert.ReferenceIdeal.LayersSpec

open Idealize.ShloMosaic Idealize.ShloMosaic.ValueIdx Cert.ReferenceIdeal Cert.ReferenceIdeal.Gen Cert.ReferenceIdeal.Layers

/-- The index of row `p` with column `k` inserted is `(p, k)`. -/
theorem lift_ix1 (h : S100000x40.Reduces [1] S100000) (p : Fin 100000) (k : Fin 40) :
    h.lift (ix1 p) k = ix2 p k :=
  funext fun a => Fin.ext (by match a with | ⟨0, _⟩ => rfl | ⟨1, _⟩ => rfl)

/-- A row's sum from the word of `0.0` is the sum of its 40 entries. -/
theorem rowSum_apply (v : FVec Ideal S100000x40 .f32) (p : Fin 100000) :
    Host.reduceAdd (F := Ideal) v (constant (F := Ideal) S_ .f32 0x00000000#32) reducesTo_S100000x40_S100000_d1 h_S_ (ix1 p)
      = ∑ k : Fin 40, v (ix2 p k) := by
  unfold Host.reduceAdd
  rw [Ideal.hostReduceAdd_def]
  refine (Ideal.hostReduceAdd_single reducesTo_S100000x40_S100000_d1 (by decide) v _ (ix1 p)).trans ?_
  rw [constant_apply, Ideal.ofBits_zero_f32, zero_add]
  exact Finset.sum_congr rfl fun k _ => congrArg v (lift_ix1 _ p k)

/-- A row's maximum folded from the word of `-∞` is the specification's row maximum. -/
theorem rowMax_apply (v : FVec Ideal S100000x40 .f32) (p : Fin 100000) :
    Host.reduce FloatOps.maximumf v (constant (F := Ideal) S_ .f32 0xFF800000#32) reducesTo_S100000x40_S100000_d1 h_S_ (ix1 p)
      = Cert.Sage.rowMax (fun k : Fin 40 => v (ix2 p k)) := by
  refine (Host.reduce_eq_fold_single FloatOps.maximumf v _ reducesTo_S100000x40_S100000_d1 (by decide) h_S_ (ix1 p)).trans ?_
  unfold Cert.Sage.rowMax
  have hv : (v ∘ (show S100000x40.Reduces [1] S100000 by decide).lift (ix1 p)) = fun k : Fin 40 => v (ix2 p k) :=
    funext fun k => congrArg v (lift_ix1 _ p k)
  rw [hv]
  rfl

/-- The host's exponential and logarithm at an entry are the extended reals'. -/
theorem hostExp_apply {s : Shape} (v : FVec Ideal s .f32) (i : s.Idx) : Host.exp (F := Ideal) v i = Ideal.exp (v i) := rfl
theorem hostLog_apply {s : Shape} (v : FVec Ideal s .f32) (i : s.Idx) : Host.log (F := Ideal) v i = Ideal.log (v i) := rfl

/-- The affine part of layer two at node `p` and channel `c`. -/
theorem affine2_apply (s : FVec Ideal S100000x32 .f32) (d : FVec Ideal S100000 .f32) (x : FVec Ideal S100000x32 .f32)
    (Wl Wr : FVec Ideal S32x40 .f32) (b : FVec Ideal S40 .f32) (p : Fin 100000) (c : Fin 40) :
    affine2 (F := Ideal) s d x Wl Wr b (ix2 p c)
      = Cert.Sage.affine (fun k : Fin 32 => s (ix2 p k)) (fun k : Fin 32 => x (ix2 p k)) (d (ix1 p))
          (fun (k : Fin 32) (q : Fin 40) => Wl (ix2 k q)) (fun (k : Fin 32) (q : Fin 40) => Wr (ix2 k q))
          (fun q : Fin 40 => b (ix1 q)) c := by
  unfold affine2 Cert.Sage.affine
  rw [addf_apply, addf_apply, dot2_apply, dot2_apply]
  refine congrArg₂ (· + ·) (congrArg₂ (· + ·) (Finset.sum_congr rfl fun k _ => ?_) rfl) ?_
  · exact congrArg (· * Wl (ix2 k c)) (mean_apply bcast_S_S100000 bcast_S100000_S100000x1_0 bcast_S100000x1_S100000x32_0_1 s d p k)
  · exact bias_apply bcast_S40_S1x40_1 bcast_S1x40_S100000x40_0_1 b p c

/-- A shifted entry: the entry less its row's maximum. -/
theorem shifted_apply (a : FVec Ideal S100000x40 .f32) (p : Fin 100000) (c : Fin 40) :
    shifted (F := Ideal) a (ix2 p c) = a (ix2 p c) - Cert.Sage.rowMax (fun k : Fin 40 => a (ix2 p k)) := by
  unfold shifted
  rw [subf_apply]
  refine congrArg (a (ix2 p c) - ·) ?_
  refine (bcast_col_mat bcast_S100000x1_S100000x40_0_1 _ p c).trans ((bcast_vec_col bcast_S100000_S100000x1_0 _ p 0).trans ?_)
  rw [maximumf_apply, bcast_scalar_vec bcast_S_S100000 _ p, rowMax_apply]
  exact Cert.Sage.max_negInf_rowMax _

/-- The log-softmax at node `p` and channel `c` is the specification's, of row `p`. -/
theorem logSoftmax_apply (a : FVec Ideal S100000x40 .f32) (p : Fin 100000) (c : Fin 40) :
    logSoftmax (F := Ideal) a (ix2 p c) = Cert.Sage.logSoftmaxRow (fun k : Fin 40 => a (ix2 p k)) c := by
  unfold logSoftmax Cert.Sage.logSoftmaxRow
  rw [subf_apply, shifted_apply]
  refine congrArg (fun t : EReal => a (ix2 p c) - Cert.Sage.rowMax (fun k : Fin 40 => a (ix2 p k)) - t) ?_
  refine (bcast_col_mat bcast_S100000x1_S100000x40_0_1 _ p c).trans ((hostLog_apply _ _).trans (congrArg Ideal.log ?_))
  refine (bcast_vec_col bcast_S100000_S100000x1_0 _ p 0).trans ((rowSum_apply _ p).trans ?_)
  refine Finset.sum_congr rfl fun k _ => ?_
  exact (hostExp_apply _ _).trans (congrArg Ideal.exp (shifted_apply a p k))

theorem refLayer2_eq (s : FVec Ideal S100000x32 .f32) (d : FVec Ideal S100000 .f32) (x : FVec Ideal S100000x32 .f32)
    (Wl Wr : FVec Ideal S32x40 .f32) (b : FVec Ideal S40 .f32) :
    refLayer2 (F := Ideal) s d x Wl Wr b
      = Cert.Sage.layer2 s x (fun p : Fin 100000 => d (ix1 p)) Wl Wr (fun c : Fin 40 => b (ix1 c)) := by
  funext i
  obtain ⟨p, c, rfl⟩ : ∃ (p : Fin 100000) (c : Fin 40), i = ix2 p c := ⟨_, _, Cert.Sage.eq_ix2_rowOf_colOf i⟩
  rw [Cert.Sage.layer2_apply]
  unfold refLayer2 Cert.Sage.outRow
  rw [logSoftmax_apply]
  exact congrArg (fun r : Fin 40 → EReal => Cert.Sage.logSoftmaxRow r c) (funext fun k => affine2_apply s d x Wl Wr b p k)

end Cert.ReferenceIdeal.LayersSpec

end
-- ==== Proof.lean ====
/-
  The certificate of a two-layer mean-aggregating graph convolution: the Pallas kernel pair against its jnp reference,
  equal over the extended reals.

  The network: with `Σ h` the neighbour sum of node rows along the edge list (rows gathered at the sources, added at
  the destinations) and `deg` the in-degree,

      h   = max ((Σ x / max deg 1) · Wl₁ + x · Wr₁ + b₁) 0 ,
      out = log-softmax over the classes of ((Σ h / max deg 1) · Wl₂ + h · Wr₂ + b₂) .

  The kernel computes each dense layer in a region over ten blocks of 10000 nodes (two matrix products into zero
  accumulators, the in-degree as a column, the bias as a row) and leaves the neighbour sums to host operations; the
  reference computes everything by host operations. At the ideal instance a change of float format is the identity,
  a matrix product is the sum over the contracted index, and a row depends on its own node only, so both arrays are
  one function of the arguments (`Cert.ReferenceIdeal.RefValue.outOf`): the kernel's by `KernelValue.out_eq` and
  `Bridge.out_eq`, the reference's by `RefValue.run`. No finiteness of the inputs is used: no law that fails at an
  infinity is applied.

  The three frame claims: the two kernels' are the frame certificates over the regions; the reference's is its run
  with the result dropped. The idealization rewrote nothing, so `preserves` is `True`.
-/
import proofs.«132116_j70789650972706_1_alg».proof.Defs
import proofs.«132116_j70789650972706_1_alg».proof.Proof.Gen.Kernel
import proofs.«132116_j70789650972706_1_alg».proof.Proof.Gen.Kernel.Skeleton
import proofs.«132116_j70789650972706_1_alg».proof.Proof.Gen.Kernel.Launch
import proofs.«132116_j70789650972706_1_alg».proof.Proof.Gen.Kernel.Points
import proofs.«132116_j70789650972706_1_alg».proof.Proof.Gen.Kernel.Frame
import proofs.«132116_j70789650972706_1_alg».proof.Proof.Gen.KernelIdeal
import proofs.«132116_j70789650972706_1_alg».proof.Proof.Gen.KernelIdeal.Skeleton
import proofs.«132116_j70789650972706_1_alg».proof.Proof.Gen.KernelIdeal.Launch
import proofs.«132116_j70789650972706_1_alg».proof.Proof.Gen.KernelIdeal.Points
import proofs.«132116_j70789650972706_1_alg».proof.Proof.Gen.KernelIdeal.Frame
import proofs.«132116_j70789650972706_1_alg».proof.Proof.Gen.ReferenceIdeal
import proofs.«132116_j70789650972706_1_alg».proof.Proof.Gen.Pre_finite_inputs
import proofs.«132116_j70789650972706_1_alg».proof.Proof.KernelRun
import proofs.«132116_j70789650972706_1_alg».proof.Proof.KernelValue
import proofs.«132116_j70789650972706_1_alg».proof.Proof.RefValue
import proofs.«132116_j70789650972706_1_alg».proof.Proof.Bridge
import proofs.«132116_j70789650972706_1_alg».proof.Proof.Payload1
import proofs.«132116_j70789650972706_1_alg».proof.Proof.Payload2
import proofs.«132116_j70789650972706_1_alg».proof.Proof.RefLayer1
import proofs.«132116_j70789650972706_1_alg».proof.Proof.RefLayer2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation. -/
theorem preserves : Cert.preserves_Kernel_KernelIdeal := trivial

/-- Both programs end with the network's result of the arguments: the kernel's result array is `kOut` of its launch
    arguments, which is `outOf` of them; the reference's is `outOf` of its own, which agree with the kernel's. -/
theorem algebraic : Cert.algebraic_KernelIdeal_ReferenceIdeal := by
  intro m ρ m' ρ' _ hagree
  refine ⟨fun c => Cert.ReferenceIdeal.RefValue.outOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans ((Cert.KernelIdeal.KernelValue.out_eq m ρ Cert.KernelIdeal.Payload.pay1_apply
          Cert.KernelIdeal.Payload.pay2_apply c).trans
          (Cert.Bridge.out_eq Cert.ReferenceIdeal.LayersSpec.refLayer1_eq Cert.ReferenceIdeal.LayersSpec.refLayer2_eq _ _ _ _ _ _ _ _)),
        (h c).2⟩)
      (Cert.KernelIdeal.ValueRun.run_out m ρ)
  · refine (θ_run Cert.ReferenceIdeal.defs _ _).mono (fun _ h c => ⟨(h c).1.trans ?_, (h c).2⟩)
      (Cert.ReferenceIdeal.RefValue.run (F := Ideal) m' ρ')
    obtain ⟨a0, a1, a2, a3, a4, a5, a6, a7⟩ := hagree c
    rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
